-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S32x128 : Shape := ⟨2, ![32, 128]⟩
abbrev S1024x1024 : Shape := ⟨2, ![1024, 1024]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S4x8x128 : Shape := ⟨3, ![4, 8, 128]⟩
abbrev S4x1x1 : Shape := ⟨3, ![4, 1, 1]⟩
abbrev S4 : Shape := ⟨1, ![4]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S32x128, .f32⟩
  | .hbm, ⟨5, _⟩ => ⟨S4x8x128, .f32⟩
  | .hbm, ⟨6, _⟩ => ⟨S4x1x1, .f32⟩
  | .hbm, ⟨7, _⟩ => ⟨S4, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S8x128, .f32⟩
  | .local _ .vmem, ⟨14, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S32x128_S4x8x128 : S32x128.ShapeCasts S4x8x128
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S32x128.size a
  hwx2_2 : ∀ i : grid2.Coords, EltTy.bits .f32 = 32 ∨ (Rect.block (s := S32x128) S8x128.size (cc2_transform_2 i) (hinb2_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096x4096 : S_.BroadcastsInDim S4096x4096 (![] : Fin 0 → Fin S4096x4096.rank)
  reducesTo_S4096x4096_S_d0_1 : S4096x4096.ReducesTo [0, 1] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.WNormBody.lean ====
/-
  The two row-normalizing calls, each as one region of the program's run, at any float instance.

  A region is entered with the core's buffers at some contents `V`.  At grid point `t` the pipeline hands the body
  the block `t` of the input array, whole, in a staging buffer; the body reads it whole, computes from it one
  vector of the output's shape, and stores that vector over the whole of the output's staging buffer.  So after
  the body the output's buffer is a function of the input block alone, whatever it held before, and the
  input's buffer is as it was.  This file states that per region as the pipeline's proof data and proves the
  body's obligation against it.
-/
import proofs.«166180_j84524956386054_2_alg».proof.Proof.Gen.Kernel.Launch
import proofs.«166180_j84524956386054_2_alg».proof.Proof.Gen.Kernel.Skeleton
import proofs.«166180_j84524956386054_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! # Region 0: the row-normalizing call on `main_arg0`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched whole at every point and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole block. -/
abbrev r0_0 : Rect S512x1024 := Rect.unit (s := S512x1024) ![0, 0] S512x1024.size inb_S512x1024_S512x1024_0_0

/-- The output window's staging buffer after the body, from the input block: its one store, of the payload
    of the block read whole. -/
def out0_1 (x0 : Vec F S512x1024 .f32) : Vec F S512x1024 .bf16 :=
  View.canon [⟨r0_0, k0_pay1 (View.ld x0 r0_0)⟩]

/-- The store's rectangle is the whole buffer, so it covers it. -/
theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pipeline on core `c`: the arrays as the region finds them; after the body at point `t` the
    input's buffer at its block and the output's at `out0_1` of the input block; the invariant the class's (the scoped rest
    and the random-number register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the row-normalizing call on `main_arg1`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is fetched whole at every point and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole block. -/
abbrev r1_0 : Rect S512x1024 := Rect.unit (s := S512x1024) ![0, 0] S512x1024.size inb_S512x1024_S512x1024_0_0

/-- The output window's staging buffer after the body, from the input block: its one store, of the payload
    of the block read whole. -/
def out1_1 (x0 : Vec F S512x1024 .f32) : Vec F S512x1024 .bf16 :=
  View.canon [⟨r1_0, k1_pay1 (View.ld x0 r1_0)⟩]

/-- The store's rectangle is the whole buffer, so it covers it. -/
theorem cover1_1 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the pipeline on core `c`: the arrays as the region finds them; after the body at point `t` the
    input's buffer at its block and the output's at `out1_1` of the input block; the invariant the class's (the scoped rest
    and the random-number register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.WLossShared.lean ====
/-
  The third pallas_call (the tiled loss) over its grid of 4 × 4 points, point t = 4·i + j: what its body's two
  conditionals decide at each point, where its output window is idle, and the memrefs its body is called with.

  The body zeroes a one-word scratch when j = 0, adds the tile's partial sum into it at every point, and copies it
  to the output block when j = 3.  So a point is in one of three cases: the first of a sweep (j = 0), a middle one
  (j = 1, 2), the last (j = 3); the output window is stored, and written back, only in the last.
-/
import proofs.«166180_j84524956386054_2_alg».proof.Proof.Gen.Kernel.Launch
import proofs.«166180_j84524956386054_2_alg».proof.Proof.Gen.Kernel.Skeleton
import proofs.«166180_j84524956386054_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile input's staging buffer holds its block at every point, fetched there (j = 0) or not (the block
    index does not move along a sweep). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column-tile input's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first point of a sweep": the body's test j = 0, as it computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last point of a sweep": the body's test j = 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At the first point of a sweep the output is not stored and not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- Nor at a middle point. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last point of a sweep it is stored. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S8x128 .f32 := (Memref.whole cc2_stg2_0 : Memref sig .tc .vmem S8x128 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x128 .f32 := win2_2.stage (cfg2.slots t 2)
abbrev hs2_2 (t : Fin cfg2.N) : (ms2_2 t).IsWhole := hstage2_2 ((cfg2.slots t 2).cast nbuf2_2)
/-- The one-word scratch carried along a sweep. -/
abbrev scM2_0 : Memref sig .tc .vmem S1x1 .f32 := Memref.whole cc2_scratch0
abbrev VS2_0 : View sig .tc .vmem S1x1 .f32 := scM2_0.view

/-! ## The first two pallas_calls' scoped rest, and this one's, with the scratch as a memref -/

/-- The class's invariant for this pallas_call, with the scratch as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d)) ∗ (∃ r, prngReg c r)) := by
  unfold Pipeline.ΦA; rw [scopedRest2_eq]; simp only [scM2_0, owns_whole]; try rfl

end Cert.Kernel.Fr

end
-- ==== Proof.WLossRunA.lean ====
/-
  The loss body at the first point of a sweep (j = 0), run whole: it zeroes the scratch, loads the two tiles, and
  stores zero plus the tile's partial sum into the scratch.  The output block is not touched.
-/
import proofs.«166180_j84524956386054_2_alg».proof.Proof.WLossShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves, as the pieces its stores wrote (last first), at a point with j = 0 — with the proof that
    on whole memrefs, the two inputs at their contents, the output block at contents handed back untouched and the
    scratch at anything, the body runs to the continuation holding the inputs as they were and the scratch with
    its pieces written. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i)
    (x0 : Vec F S1024x1024 .bf16) (x1 : Vec F S1024x1024 .bf16) :
    Σ' (L2 : List (View.Piece (Elt F) S8x128 .f32)), { LS0 : List (View.Piece (Elt F) S1x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__sim_loss_kernel i arg2 harg2 arg3 harg3 arg4 harg4 arg5 harg5) K } := by
  refine ⟨[], ?_, fun xi2 E K => ?run⟩
  case run =>
    simp only [cc2__sim_loss_kernel_eq_skeleton]; unfold cc2__sim_loss_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.WLossRunB.lean ====
/-
  The loss body at a middle point of a sweep (j = 1, 2), run whole: it loads the two tiles and adds the tile's
  partial sum to what the scratch held.  The output block is not touched.
-/
import proofs.«166180_j84524956386054_2_alg».proof.Proof.WLossRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves at a point with j = 1 or 2, the scratch entered at the contents `xs0` the point before left. -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i)
    (x0 : Vec F S1024x1024 .bf16) (x1 : Vec F S1024x1024 .bf16) (xs0 : Vec F S1x1 .f32) :
    Σ' (L2 : List (View.Piece (Elt F) S8x128 .f32)), { LS0 : List (View.Piece (Elt F) S1x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__sim_loss_kernel i arg2 harg2 arg3 harg3 arg4 harg4 arg5 harg5) K } := by
  refine ⟨[], ?_, fun xi2 E K => ?run⟩
  case run =>
    simp only [cc2__sim_loss_kernel_eq_skeleton]; unfold cc2__sim_loss_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.WLossRunC.lean ====
/-
  The loss body at the last point of a sweep (j = 3), run whole: it loads the two tiles, adds the tile's partial sum
  to what the scratch held, and copies the scratch's word to every entry of the output block.
-/
import proofs.«166180_j84524956386054_2_alg».proof.Proof.WLossRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves at a point with j = 3, the scratch entered at the contents `xs0` the point before left and
    the output block at anything. -/
noncomputable def kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i)
    (x0 : Vec F S1024x1024 .bf16) (x1 : Vec F S1024x1024 .bf16) (xs0 : Vec F S1x1 .f32) :
    Σ' (L2 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__sim_loss_kernel i arg2 harg2 arg3 harg3 arg4 harg4 arg5 harg5) K } := by
  refine ⟨?_, ?_, fun E K => ?run⟩
  case run =>
    simp only [cc2__sim_loss_kernel_eq_skeleton]; unfold cc2__sim_loss_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.WLossBody.lean ====
/-
  The third pallas_call's body obligation and proof data.

  Along a sweep i the scratch holds, after point (i, j), what the body's pieces leave there: at j = 0 the zero the body
  stored plus the tile's partial sum, afterwards the previous point's contents plus the tile's partial sum.  `outsAt2`
  states this point by point, as a pair (the output block, the scratch); the region's invariant carries the scratch at
  the second component from one point to the next, and the eight staging buffers of the two earlier pallas_calls
  untouched.  The output block is stored only at j = 3, where the pipeline writes it back; elsewhere its buffer is
  handed back as found.
-/
import proofs.«166180_j84524956386054_2_alg».proof.Proof.WLossRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 nothing is stored into the output block: a placeholder nothing consults. -/
def out2_A_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i) (x0 x1 : Vec F S1024x1024 .bf16) : Vec F S8x128 .f32 :=
  VO2_2.read (Elt F) (VO2_2.writes (Elt F) VO2_2.junk (kernelRun2_A c i arg2 harg2 arg3 harg3 arg4 harg4 arg5 harg5 hc0 hc1 x0 x1).1)
/-- The scratch's pieces at j = 0 cover its one word. -/
theorem scover2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i) (x0 x1 : Vec F S1024x1024 .bf16) (y : S1x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x1.size (by sl_kernel_rfl) y
/-- What the scratch holds after a point with j = 0. -/
def sout2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i) (x0 x1 : Vec F S1024x1024 .bf16) : Vec F S1x1 .f32 :=
  VS2_0.read (Elt F) (VS2_0.writes (Elt F) VS2_0.junk (kernelRun2_A c i arg2 harg2 arg3 harg3 arg4 harg4 arg5 harg5 hc0 hc1 x0 x1).2.1)

/-- At j = 1, 2 nothing is stored into the output block either. -/
def out2_B_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i) (x0 x1 : Vec F S1024x1024 .bf16) (xs0 : Vec F S1x1 .f32) : Vec F S8x128 .f32 :=
  VO2_2.read (Elt F) (VO2_2.writes (Elt F) VO2_2.junk (kernelRun2_B c i arg2 harg2 arg3 harg3 arg4 harg4 arg5 harg5 hc0 hc1 x0 x1 xs0).1)
theorem scover2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i) (x0 x1 : Vec F S1024x1024 .bf16) (xs0 : Vec F S1x1 .f32) (y : S1x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1x1.size (by sl_kernel_rfl) y
def sout2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i) (x0 x1 : Vec F S1024x1024 .bf16) (xs0 : Vec F S1x1 .f32) : Vec F S1x1 .f32 :=
  VS2_0.read (Elt F) (VS2_0.writes (Elt F) VS2_0.junk (kernelRun2_B c i arg2 harg2 arg3 harg3 arg4 harg4 arg5 harg5 hc0 hc1 x0 x1 xs0).2.1)

/-- At j = 3 the output block's one store covers it. -/
theorem cover2_C_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) (y : S8x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S8x128.size (by sl_kernel_rfl) y
/-- What the output block holds after a point with j = 3. -/
def out2_C_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) : Vec F S8x128 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) (y : S1x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1.size (by sl_kernel_rfl) y
def sout2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) : Vec F S1x1 .f32 :=
  VS2_0.read (Elt F) (VS2_0.writes (Elt F) VS2_0.junk (kernelRun2_C c i arg2 harg2 arg3 harg3 arg4 harg4 arg5 harg5 hc0 hc1 x0 x1 xs0).2.1)

/-! ## What the output block and the scratch hold after each point -/

/-- THE ACCUMULATION: after the body at position `n`, the pair (output block, scratch): the case `n mod 4` selects, run
    on the point's blocks, a later point of a sweep over the scratch the point before left. -/
def outsAt2 (c : Dev nD) : (n : ℕ) → n < cfg2.N → Vec F S8x128 .f32 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩),
              sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩),
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
         sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at the first point of a sweep. -/
theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans rfl

/-- `outsAt2` at a middle point: over what the point before left in the scratch. -/
theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a sweep. -/
theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the class's invariant (the scratch at anything); afterwards the other
    scoped buffers at anything, the scratch at what the point before left, the generator register at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The proof data -/

/-- The arrays as the region finds them; after the body at a point each input's buffer at its block, the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; `t mod 4` says which case the point is in; the
    invariant hands the body the scratch (at anything at the very first point, else at what the point before left)
    and takes it back at this point's contents; the output block is handed back as found unless j = 3. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨A1, A2, A3, A4, A5, A6, A7, A8, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_A_0 c _ _ _ _ _ _ _ _ _ _ _ _ _)
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨A1, A2, A3, A4, A5, A6, A7, A8, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_A_0 c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨A1, A2, A3, A4, A5, A6, A7, A8, HS0⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨A1, A2, A3, A4, A5, A6, A7, A8, HS0⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨A1, A2, A3, A4, A5, A6, A7, A8, HS0⟩, Hg⟩
  isplitl [A1 A2 A3 A4 A5 A6 A7 A8 HS0]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexists _; iexact HS0
  iexact Hg

end Cert.Kernel.Fr

end
-- ==== Proof.WRun.lean ====
/-
  The whole program as four segments — the two row-normalizing pallas_calls, the tiled loss, the host's five closing
  operations — run from the launch to the return.

  The TensorCore's unscoped buffers are followed from boundary to boundary: `Wa` at launch; after each pallas_call
  its arrays at what the pipeline's write-backs leave (`Wb`, `Wc`, `Wd`) and every other buffer as before; `We`
  after the host's operations.  Every weakly fair execution terminates with every unscoped buffer at `We`; the two
  argument arrays, which no segment writes, are there as launched.
-/
import proofs.«166180_j84524956386054_2_alg».proof.Proof.WNormBody
import proofs.«166180_j84524956386054_2_alg».proof.Proof.WLossBody
import proofs.«166180_j84524956386054_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b

/-- At pallas_call 0's exit: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- At pallas_call 1's exit: its arrays at what the pipeline leaves, every other buffer as entered. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
/-- The same read at the TensorCore's references. -/
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- At pallas_call 2's exit: its arrays at what the pipeline leaves, every other buffer as entered. -/
def Wd (c : Dev nD) : Valuation τ sig (Elt F) :=
  Pipeline.withArrays spec2 c (Wc m ρ c) fun w => (dat2 (Vc m ρ) c).arrAt w cfg2.N
theorem Wd_arr (c : Dev nD) (w : Fin cfg2.W) :
    Wd m ρ c (Proc.devRef .tc (Pipeline.arrRef spec2 w)) = (dat2 (Vc m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc m ρ c (Proc.devRef .tc b) := by
  unfold Wd; exact Pipeline.withArrays_of_ne spec2 c _ _ b hb
/-- The same read at the TensorCore's references. -/
abbrev Vd : (c : Dev nD) → (b : Ref sig .tc) → Buf (Elt F) ((c : Thread nD τ).loc b) := fun c b => Wd m ρ c b
theorem hF2 (c : Dev nD) (w : Fin cfg2.W) : (dat2 (Vc m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc m ρ c b :=
  fun b hb => Wd_of_ne m ρ c b fun w e => hb (Finset.mem_image.mpr ⟨w, Finset.mem_univ _, e⟩)

/-- After the host's closing operations. -/
abbrev We : Dev nD → Valuation τ sig (Elt F) := fun c => StableHlo.after hostOps3 (Wd m ρ c)

/-! ## The arguments end as launched -/

theorem We_of (c : Dev nD) (r : Ref sig .tc) (h : r ∉ hostOps3_W) : We m ρ c r = Wd m ρ c r :=
  StableHlo.after_of_writes_sub hostOps3 _ hostOps3_writes h

theorem We_main_arg0 (c : Dev nD) : We m ρ c (Proc.devRef .tc main_arg0) = m ((c : Thread nD τ).loc main_arg0) :=
  calc We m ρ c (Proc.devRef .tc main_arg0)
    _ = Wd m ρ c (Proc.devRef .tc main_arg0) := We_of m ρ c main_arg0 (by decide)
    _ = Wc m ρ c (Proc.devRef .tc main_arg0) := Wd_of_ne m ρ c main_arg0 (by decide)
    _ = Wb m ρ c (Proc.devRef .tc main_arg0) := Wc_of_ne m ρ c main_arg0 (by decide)
    _ = Wa m ρ c (Proc.devRef .tc main_arg0) := (Wb_arr m ρ c 0).trans (((dat0 (Va m ρ) c).arrAt_in 0 rfl _).trans (A_eq0 (Va m ρ) c 0))
    _ = m ((c : Thread nD τ).loc main_arg0) := rfl

theorem We_main_arg1 (c : Dev nD) : We m ρ c (Proc.devRef .tc main_arg1) = m ((c : Thread nD τ).loc main_arg1) :=
  calc We m ρ c (Proc.devRef .tc main_arg1)
    _ = Wd m ρ c (Proc.devRef .tc main_arg1) := We_of m ρ c main_arg1 (by decide)
    _ = Wc m ρ c (Proc.devRef .tc main_arg1) := Wd_of_ne m ρ c main_arg1 (by decide)
    _ = Wb m ρ c (Proc.devRef .tc main_arg1) := (Wc_arr m ρ c 0).trans (((dat1 (Vb m ρ) c).arrAt_in 0 rfl _).trans (A_eq1 (Vb m ρ) c 0))
    _ = Wa m ρ c (Proc.devRef .tc main_arg1) := Wb_of_ne m ρ c main_arg1 (by decide)
    _ = m ((c : Thread nD τ).loc main_arg1) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
  | ⟨2, _⟩ => fun c => dat2 (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (We m ρ c) ∗ ∃ r, prngReg c r)

/-! ## The pallas_calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m ρ) c).loose
  hwaits := Pipeline.hwaits_of_owed_zero _ _ _ _ L lv 2 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (Vc m ρ) c).Φ 0 from rfl]
    iintro ⟨Hp, -, Hr⟩
    iapply (hin2 (Vc m ρ) c)
    iapply (show iprop(Pipeline.scopedRest spec2 c ∗ ∃ r, prngReg c r) ⊢ (Pipeline.ΦA spec2 c : sProp 𝕄) from by unfold Pipeline.ΦA; exact .rfl)
    isplitl [Hr]; · iexact Hr
    iexact Hp
  hout c := by
    rw [Pipeline.ownSems0_none, show (pdats m ρ 2 c).Φ (Fin.last _) = (dat2 (Vc m ρ) c).Φ (Fin.last cfg2.N) from rfl]
    iintro Hphi
    ihave H := (hout2 (Vc m ρ) c) $$ Hphi
    ihave H2 := (show (Pipeline.ΦA spec2 c : sProp 𝕄) ⊢ iprop(Pipeline.scopedRest spec2 c ∗ ∃ r, prngReg c r) from by unfold Pipeline.ΦA; exact .rfl) $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh (Wd m ρ)) ]

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (We m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h => h)

/-- The frame: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (We_main_arg0 m ρ c),
     (h c _ (mem_uc main_arg1 (by decide))).trans (We_main_arg1 m ρ c)⟩) (run_all m ρ)

end Cert.Kernel.Fr

end
-- ==== Proof.NormBody.lean ====
/-
  The two row-normalizing calls, each as one region of the program's run, at any float instance.

  A region is entered with the core's buffers at some contents `V`.  At grid point `t` the pipeline hands the body
  the block `t` of the input array, whole, in a staging buffer; the body reads it whole, computes from it one
  vector of the output's shape, and stores that vector over the whole of the output's staging buffer.  So after
  the body the output's buffer is a function of the input block alone, whatever it held before, and the
  input's buffer is as it was.  This file states that per region as the pipeline's proof data and proves the
  body's obligation against it.
-/
import proofs.«166180_j84524956386054_2_alg».proof.Proof.Gen.KernelIdeal.Launch
import proofs.«166180_j84524956386054_2_alg».proof.Proof.Gen.KernelIdeal.Skeleton
import proofs.«166180_j84524956386054_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! # Region 0: the row-normalizing call on `main_arg0`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched whole at every point and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole block. -/
abbrev r0_0 : Rect S512x1024 := Rect.unit (s := S512x1024) ![0, 0] S512x1024.size inb_S512x1024_S512x1024_0_0

/-- The output window's staging buffer after the body, from the input block: its one store, of the payload
    of the block read whole. -/
def out0_1 (x0 : Vec F S512x1024 .f32) : Vec F S512x1024 .bf16 :=
  View.canon [⟨r0_0, k0_pay1 (View.ld x0 r0_0)⟩]

/-- The store's rectangle is the whole buffer, so it covers it. -/
theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pipeline on core `c`: the arrays as the region finds them; after the body at point `t` the
    input's buffer at its block and the output's at `out0_1` of the input block; the invariant the class's (the scoped rest
    and the random-number register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the row-normalizing call on `main_arg1`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is fetched whole at every point and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole block. -/
abbrev r1_0 : Rect S512x1024 := Rect.unit (s := S512x1024) ![0, 0] S512x1024.size inb_S512x1024_S512x1024_0_0

/-- The output window's staging buffer after the body, from the input block: its one store, of the payload
    of the block read whole. -/
def out1_1 (x0 : Vec F S512x1024 .f32) : Vec F S512x1024 .bf16 :=
  View.canon [⟨r1_0, k1_pay1 (View.ld x0 r1_0)⟩]

/-- The store's rectangle is the whole buffer, so it covers it. -/
theorem cover1_1 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the pipeline on core `c`: the arrays as the region finds them; after the body at point `t` the
    input's buffer at its block and the output's at `out1_1` of the input block; the invariant the class's (the scoped rest
    and the random-number register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.LossShared.lean ====
/-
  The third pallas_call (the tiled loss) over its grid of 4 × 4 points, point t = 4·i + j: what its body's two
  conditionals decide at each point, where its output window is idle, and the memrefs its body is called with.

  The body zeroes a one-word scratch when j = 0, adds the tile's partial sum into it at every point, and copies it
  to the output block when j = 3.  So a point is in one of three cases: the first of a sweep (j = 0), a middle one
  (j = 1, 2), the last (j = 3); the output window is stored, and written back, only in the last.
-/
import proofs.«166180_j84524956386054_2_alg».proof.Proof.Gen.KernelIdeal.Launch
import proofs.«166180_j84524956386054_2_alg».proof.Proof.Gen.KernelIdeal.Skeleton
import proofs.«166180_j84524956386054_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile input's staging buffer holds its block at every point, fetched there (j = 0) or not (the block
    index does not move along a sweep). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column-tile input's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first point of a sweep": the body's test j = 0, as it computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last point of a sweep": the body's test j = 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At the first point of a sweep the output is not stored and not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- Nor at a middle point. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last point of a sweep it is stored. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S8x128 .f32 := (Memref.whole cc2_stg2_0 : Memref sig .tc .vmem S8x128 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x128 .f32 := win2_2.stage (cfg2.slots t 2)
abbrev hs2_2 (t : Fin cfg2.N) : (ms2_2 t).IsWhole := hstage2_2 ((cfg2.slots t 2).cast nbuf2_2)
/-- The one-word scratch carried along a sweep. -/
abbrev scM2_0 : Memref sig .tc .vmem S1x1 .f32 := Memref.whole cc2_scratch0
abbrev VS2_0 : View sig .tc .vmem S1x1 .f32 := scM2_0.view

/-! ## The first two pallas_calls' scoped rest, and this one's, with the scratch as a memref -/

/-- The class's invariant for this pallas_call, with the scratch as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d)) ∗ (∃ r, prngReg c r)) := by
  unfold Pipeline.ΦA; rw [scopedRest2_eq]; simp only [scM2_0, owns_whole]; try rfl

end Cert.KernelIdeal.Fr

end
-- ==== Proof.LossRunA.lean ====
/-
  The loss body at the first point of a sweep (j = 0), run whole: it zeroes the scratch, loads the two tiles, and
  stores zero plus the tile's partial sum into the scratch.  The output block is not touched.
-/
import proofs.«166180_j84524956386054_2_alg».proof.Proof.LossShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves, as the pieces its stores wrote (last first), at a point with j = 0 — with the proof that
    on whole memrefs, the two inputs at their contents, the output block at contents handed back untouched and the
    scratch at anything, the body runs to the continuation holding the inputs as they were and the scratch with
    its pieces written. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i)
    (x0 : Vec F S1024x1024 .bf16) (x1 : Vec F S1024x1024 .bf16) :
    Σ' (L2 : List (View.Piece (Elt F) S8x128 .f32)), { LS0 : List (View.Piece (Elt F) S1x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__sim_loss_kernel i arg2 harg2 arg3 harg3 arg4 harg4 arg5 harg5) K } := by
  refine ⟨[], ?_, fun xi2 E K => ?run⟩
  case run =>
    simp only [cc2__sim_loss_kernel_eq_skeleton]; unfold cc2__sim_loss_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.LossRunB.lean ====
/-
  The loss body at a middle point of a sweep (j = 1, 2), run whole: it loads the two tiles and adds the tile's
  partial sum to what the scratch held.  The output block is not touched.
-/
import proofs.«166180_j84524956386054_2_alg».proof.Proof.LossRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves at a point with j = 1 or 2, the scratch entered at the contents `xs0` the point before left. -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i)
    (x0 : Vec F S1024x1024 .bf16) (x1 : Vec F S1024x1024 .bf16) (xs0 : Vec F S1x1 .f32) :
    Σ' (L2 : List (View.Piece (Elt F) S8x128 .f32)), { LS0 : List (View.Piece (Elt F) S1x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__sim_loss_kernel i arg2 harg2 arg3 harg3 arg4 harg4 arg5 harg5) K } := by
  refine ⟨[], ?_, fun xi2 E K => ?run⟩
  case run =>
    simp only [cc2__sim_loss_kernel_eq_skeleton]; unfold cc2__sim_loss_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.LossRunC.lean ====
/-
  The loss body at the last point of a sweep (j = 3), run whole: it loads the two tiles, adds the tile's partial sum
  to what the scratch held, and copies the scratch's word to every entry of the output block.
-/
import proofs.«166180_j84524956386054_2_alg».proof.Proof.LossRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves at a point with j = 3, the scratch entered at the contents `xs0` the point before left and
    the output block at anything. -/
noncomputable def kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i)
    (x0 : Vec F S1024x1024 .bf16) (x1 : Vec F S1024x1024 .bf16) (xs0 : Vec F S1x1 .f32) :
    Σ' (L2 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__sim_loss_kernel i arg2 harg2 arg3 harg3 arg4 harg4 arg5 harg5) K } := by
  refine ⟨?_, ?_, fun E K => ?run⟩
  case run =>
    simp only [cc2__sim_loss_kernel_eq_skeleton]; unfold cc2__sim_loss_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.LossBody.lean ====
/-
  The third pallas_call's body obligation and proof data.

  Along a sweep i the scratch holds, after point (i, j), what the body's pieces leave there: at j = 0 the zero the body
  stored plus the tile's partial sum, afterwards the previous point's contents plus the tile's partial sum.  `outsAt2`
  states this point by point, as a pair (the output block, the scratch); the region's invariant carries the scratch at
  the second component from one point to the next, and the eight staging buffers of the two earlier pallas_calls
  untouched.  The output block is stored only at j = 3, where the pipeline writes it back; elsewhere its buffer is
  handed back as found.
-/
import proofs.«166180_j84524956386054_2_alg».proof.Proof.LossRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 nothing is stored into the output block: a placeholder nothing consults. -/
def out2_A_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i) (x0 x1 : Vec F S1024x1024 .bf16) : Vec F S8x128 .f32 :=
  VO2_2.read (Elt F) (VO2_2.writes (Elt F) VO2_2.junk (kernelRun2_A c i arg2 harg2 arg3 harg3 arg4 harg4 arg5 harg5 hc0 hc1 x0 x1).1)
/-- The scratch's pieces at j = 0 cover its one word. -/
theorem scover2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i) (x0 x1 : Vec F S1024x1024 .bf16) (y : S1x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x1.size (by sl_kernel_rfl) y
/-- What the scratch holds after a point with j = 0. -/
def sout2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i) (x0 x1 : Vec F S1024x1024 .bf16) : Vec F S1x1 .f32 :=
  VS2_0.read (Elt F) (VS2_0.writes (Elt F) VS2_0.junk (kernelRun2_A c i arg2 harg2 arg3 harg3 arg4 harg4 arg5 harg5 hc0 hc1 x0 x1).2.1)

/-- At j = 1, 2 nothing is stored into the output block either. -/
def out2_B_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i) (x0 x1 : Vec F S1024x1024 .bf16) (xs0 : Vec F S1x1 .f32) : Vec F S8x128 .f32 :=
  VO2_2.read (Elt F) (VO2_2.writes (Elt F) VO2_2.junk (kernelRun2_B c i arg2 harg2 arg3 harg3 arg4 harg4 arg5 harg5 hc0 hc1 x0 x1 xs0).1)
theorem scover2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i) (x0 x1 : Vec F S1024x1024 .bf16) (xs0 : Vec F S1x1 .f32) (y : S1x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1x1.size (by sl_kernel_rfl) y
def sout2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i) (x0 x1 : Vec F S1024x1024 .bf16) (xs0 : Vec F S1x1 .f32) : Vec F S1x1 .f32 :=
  VS2_0.read (Elt F) (VS2_0.writes (Elt F) VS2_0.junk (kernelRun2_B c i arg2 harg2 arg3 harg3 arg4 harg4 arg5 harg5 hc0 hc1 x0 x1 xs0).2.1)

/-- At j = 3 the output block's one store covers it. -/
theorem cover2_C_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) (y : S8x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S8x128.size (by sl_kernel_rfl) y
/-- What the output block holds after a point with j = 3. -/
def out2_C_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) : Vec F S8x128 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) (y : S1x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1.size (by sl_kernel_rfl) y
def sout2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) : Vec F S1x1 .f32 :=
  VS2_0.read (Elt F) (VS2_0.writes (Elt F) VS2_0.junk (kernelRun2_C c i arg2 harg2 arg3 harg3 arg4 harg4 arg5 harg5 hc0 hc1 x0 x1 xs0).2.1)

/-! ## What the output block and the scratch hold after each point -/

/-- THE ACCUMULATION: after the body at position `n`, the pair (output block, scratch): the case `n mod 4` selects, run
    on the point's blocks, a later point of a sweep over the scratch the point before left. -/
def outsAt2 (c : Dev nD) : (n : ℕ) → n < cfg2.N → Vec F S8x128 .f32 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩),
              sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩),
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
         sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at the first point of a sweep. -/
theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans rfl

/-- `outsAt2` at a middle point: over what the point before left in the scratch. -/
theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a sweep. -/
theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the class's invariant (the scratch at anything); afterwards the other
    scoped buffers at anything, the scratch at what the point before left, the generator register at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The proof data -/

/-- The arrays as the region finds them; after the body at a point each input's buffer at its block, the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; `t mod 4` says which case the point is in; the
    invariant hands the body the scratch (at anything at the very first point, else at what the point before left)
    and takes it back at this point's contents; the output block is handed back as found unless j = 3. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨A1, A2, A3, A4, A5, A6, A7, A8, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_A_0 c _ _ _ _ _ _ _ _ _ _ _ _ _)
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨A1, A2, A3, A4, A5, A6, A7, A8, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_A_0 c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨A1, A2, A3, A4, A5, A6, A7, A8, HS0⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨A1, A2, A3, A4, A5, A6, A7, A8, HS0⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [A1 A2 A3 A4 A5 A6 A7 A8 HS0 Hg]
      · isplitl [A1 A2 A3 A4 A5 A6 A7 A8 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          unfold owns; iexists _; isplitr
          swap; · iexact HS0
          ipureintro; exact View.read_writes_of_cover _ _ _ _ _ (scover2_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨A1, A2, A3, A4, A5, A6, A7, A8, HS0⟩, Hg⟩
  isplitl [A1 A2 A3 A4 A5 A6 A7 A8 HS0]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexists _; iexact HS0
  iexact Hg

end Cert.KernelIdeal.Fr

end
-- ==== Proof.Run.lean ====
/-
  The whole program as four segments — the two row-normalizing pallas_calls, the tiled loss, the host's five closing
  operations — run from the launch to the return.

  The TensorCore's unscoped buffers are followed from boundary to boundary: `Wa` at launch; after each pallas_call
  its arrays at what the pipeline's write-backs leave (`Wb`, `Wc`, `Wd`) and every other buffer as before; `We`
  after the host's operations.  Every weakly fair execution terminates with every unscoped buffer at `We`; the two
  argument arrays, which no segment writes, are there as launched.
-/
import proofs.«166180_j84524956386054_2_alg».proof.Proof.NormBody
import proofs.«166180_j84524956386054_2_alg».proof.Proof.LossBody
import proofs.«166180_j84524956386054_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b

/-- At pallas_call 0's exit: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- At pallas_call 1's exit: its arrays at what the pipeline leaves, every other buffer as entered. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
/-- The same read at the TensorCore's references. -/
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- At pallas_call 2's exit: its arrays at what the pipeline leaves, every other buffer as entered. -/
def Wd (c : Dev nD) : Valuation τ sig (Elt F) :=
  Pipeline.withArrays spec2 c (Wc m ρ c) fun w => (dat2 (Vc m ρ) c).arrAt w cfg2.N
theorem Wd_arr (c : Dev nD) (w : Fin cfg2.W) :
    Wd m ρ c (Proc.devRef .tc (Pipeline.arrRef spec2 w)) = (dat2 (Vc m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc m ρ c (Proc.devRef .tc b) := by
  unfold Wd; exact Pipeline.withArrays_of_ne spec2 c _ _ b hb
/-- The same read at the TensorCore's references. -/
abbrev Vd : (c : Dev nD) → (b : Ref sig .tc) → Buf (Elt F) ((c : Thread nD τ).loc b) := fun c b => Wd m ρ c b
theorem hF2 (c : Dev nD) (w : Fin cfg2.W) : (dat2 (Vc m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc m ρ c b :=
  fun b hb => Wd_of_ne m ρ c b fun w e => hb (Finset.mem_image.mpr ⟨w, Finset.mem_univ _, e⟩)

/-- After the host's closing operations. -/
abbrev We : Dev nD → Valuation τ sig (Elt F) := fun c => StableHlo.after hostOps3 (Wd m ρ c)

/-! ## The arguments end as launched -/

theorem We_of (c : Dev nD) (r : Ref sig .tc) (h : r ∉ hostOps3_W) : We m ρ c r = Wd m ρ c r :=
  StableHlo.after_of_writes_sub hostOps3 _ hostOps3_writes h

theorem We_main_arg0 (c : Dev nD) : We m ρ c (Proc.devRef .tc main_arg0) = m ((c : Thread nD τ).loc main_arg0) :=
  calc We m ρ c (Proc.devRef .tc main_arg0)
    _ = Wd m ρ c (Proc.devRef .tc main_arg0) := We_of m ρ c main_arg0 (by decide)
    _ = Wc m ρ c (Proc.devRef .tc main_arg0) := Wd_of_ne m ρ c main_arg0 (by decide)
    _ = Wb m ρ c (Proc.devRef .tc main_arg0) := Wc_of_ne m ρ c main_arg0 (by decide)
    _ = Wa m ρ c (Proc.devRef .tc main_arg0) := (Wb_arr m ρ c 0).trans (((dat0 (Va m ρ) c).arrAt_in 0 rfl _).trans (A_eq0 (Va m ρ) c 0))
    _ = m ((c : Thread nD τ).loc main_arg0) := rfl

theorem We_main_arg1 (c : Dev nD) : We m ρ c (Proc.devRef .tc main_arg1) = m ((c : Thread nD τ).loc main_arg1) :=
  calc We m ρ c (Proc.devRef .tc main_arg1)
    _ = Wd m ρ c (Proc.devRef .tc main_arg1) := We_of m ρ c main_arg1 (by decide)
    _ = Wc m ρ c (Proc.devRef .tc main_arg1) := Wd_of_ne m ρ c main_arg1 (by decide)
    _ = Wb m ρ c (Proc.devRef .tc main_arg1) := (Wc_arr m ρ c 0).trans (((dat1 (Vb m ρ) c).arrAt_in 0 rfl _).trans (A_eq1 (Vb m ρ) c 0))
    _ = Wa m ρ c (Proc.devRef .tc main_arg1) := Wb_of_ne m ρ c main_arg1 (by decide)
    _ = m ((c : Thread nD τ).loc main_arg1) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
  | ⟨2, _⟩ => fun c => dat2 (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (We m ρ c) ∗ ∃ r, prngReg c r)

/-! ## The pallas_calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m ρ) c).loose
  hwaits := Pipeline.hwaits_of_owed_zero _ _ _ _ L lv 2 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (Vc m ρ) c).Φ 0 from rfl]
    iintro ⟨Hp, -, Hr⟩
    iapply (hin2 (Vc m ρ) c)
    iapply (show iprop(Pipeline.scopedRest spec2 c ∗ ∃ r, prngReg c r) ⊢ (Pipeline.ΦA spec2 c : sProp 𝕄) from by unfold Pipeline.ΦA; exact .rfl)
    isplitl [Hr]; · iexact Hr
    iexact Hp
  hout c := by
    rw [Pipeline.ownSems0_none, show (pdats m ρ 2 c).Φ (Fin.last _) = (dat2 (Vc m ρ) c).Φ (Fin.last cfg2.N) from rfl]
    iintro Hphi
    ihave H := (hout2 (Vc m ρ) c) $$ Hphi
    ihave H2 := (show (Pipeline.ΦA spec2 c : sProp 𝕄) ⊢ iprop(Pipeline.scopedRest spec2 c ∗ ∃ r, prngReg c r) from by unfold Pipeline.ΦA; exact .rfl) $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh (Wd m ρ)) ]

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (We m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h => h)

/-- The frame: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (We_main_arg0 m ρ c),
     (h c _ (mem_uc main_arg1 (by decide))).trans (We_main_arg1 m ρ c)⟩) (run_all m ρ)

end Cert.KernelIdeal.Fr

end
-- ==== Proof.Spec.lean ====
/-
  The loss both programs compute, as functions of the two input arrays over the extended reals.

  A row `r` of an array `x : [4096, 1024]` has the clamped norm `nrm x r = max (sqrt (Σ_k x[r,k]²)) ε`.
  The kernel scales a row by the reciprocal of that norm, `x[r,k] · (1 / nrm x r)`; the reference divides,
  `x[r,k] / nrm x r` (its row sum starts from the host's initial value `0`).  With `cos[u,v] = Σ_k a[u,k] · b[v,k]`
  over the scaled rows, the loss is the sum over all (u, v) of `(1 − cos[u,v])²`.

  The kernel reaches it tile by tile: `part i j` sums `(1 − cos)²` over the 1024 × 1024 tile (i, j), first along a
  row and then over the rows; `accUpTo i j` is the running sum over the tiles (i, 0) … (i, j), started from zero;
  `kerLoss` is the host's sum of the four row totals.  The reference sums once over every index of [4096, 4096].
-/
import Idealize.ShloMosaic.PureOps.Ideal
import Idealize.ShloMosaic.Lib.ValueIdx

noncomputable section

namespace Cert.Spec

open Idealize.ShloMosaic Idealize.ShloMosaic.ValueIdx

/-- An input array [4096, 1024] over the extended reals. -/
abbrev Arr : Type := (⟨2, ![4096, 1024]⟩ : Shape).Idx → EReal

/-- The clamp ε, the float literal both programs share. -/
def eps : EReal := Ideal.ofBits .f32 0x322BCC77#32
/-- The literal 1.0 both programs share. -/
def one : EReal := Ideal.ofBits .f32 0x3F800000#32

/-- Row `r`'s sum of squares. -/
def sumSq (x : Arr) (r : Fin 4096) : EReal := ∑ k : Fin 1024, x (ix2 r k) * x (ix2 r k)

/-- Row `r`'s clamped norm as the kernel computes it. -/
def nrm (x : Arr) (r : Fin 4096) : EReal := max (Ideal.sqrt (sumSq x r)) eps
/-- Row `r`'s clamped norm as the reference computes it: the host's sum starts from `0`. -/
def nrmR (x : Arr) (r : Fin 4096) : EReal := max (Ideal.sqrt (0 + sumSq x r)) eps

/-- The kernel's scaled entry: the entry times the reciprocal of its row's clamped norm. -/
def unitK (x : Arr) (r : Fin 4096) (k : Fin 1024) : EReal := x (ix2 r k) * Ideal.div one (nrm x r)
/-- The reference's scaled entry: the entry divided by its row's clamped norm. -/
def unitR (x : Arr) (r : Fin 4096) (k : Fin 1024) : EReal := Ideal.div (x (ix2 r k)) (nrmR x r)

/-- The kernel's `(1 − cos[u,v])²`. -/
def sqK (x y : Arr) (u v : Fin 4096) : EReal :=
  (one - ∑ k : Fin 1024, unitK x u k * unitK y v k) * (one - ∑ k : Fin 1024, unitK x u k * unitK y v k)
/-- The reference's `(1 − cos[u,v])²`. -/
def sqR (x y : Arr) (u v : Fin 4096) : EReal :=
  (one - ∑ k : Fin 1024, unitR x u k * unitR y v k) * (one - ∑ k : Fin 1024, unitR x u k * unitR y v k)

/-- Row `r` of tile-row `i`. -/
def rowOf (i : Fin 4) (r : Fin 1024) : Fin 4096 := ⟨1024 * i.val + r.val, by omega⟩

/-- The kernel's partial sum over tile (i, j): along each row, then over the rows. -/
def part (x y : Arr) (i j : Fin 4) : EReal :=
  ∑ r : Fin 1024, ∑ c : Fin 1024, sqK x y (rowOf i r) (rowOf j c)

/-- The running sum over the tiles (i, 0) … (i, j): started from zero at `j = 0`. -/
def accUpTo (x y : Arr) (i : Fin 4) : (j : ℕ) → j < 4 → EReal
  | 0, h => 0 + part x y i ⟨0, h⟩
  | j + 1, h => accUpTo x y i j (by omega) + part x y i ⟨j + 1, h⟩

/-- The kernel's loss: the host's sum, from `0`, of the four row totals. -/
def kerLoss (x y : Arr) : EReal := 0 + ∑ i : Fin 4, accUpTo x y i 3 (by omega)

/-- The reference's loss: the host's sum, from `0`, over every index of [4096, 4096]. -/
def refLoss (x y : Arr) : EReal :=
  0 + ∑ idx : (⟨2, ![4096, 4096]⟩ : Shape).Idx, sqR x y (idx 0) (idx 1)

end Cert.Spec

end
-- ==== Proof.NormValue.lean ====
/-
  The two row-normalizing calls at the ideal instance: the array each leaves, as one function of the array it reads.

  Grid point `t` of a call reads rows `512 t … 512 t + 511` of its input `x : [4096, 1024]`, whole, and writes the
  same rows of its output.  The stored vector at `(p, q)` is `x[p,q] · (1 / max (sqrt (Σ_k x[p,k]²)) ε)`: it depends on
  row `p` of the block only, and a row of the block is a whole row of the array, so the value is the same function
  of the array's row `512 t + p`.  The eight blocks tile the output, so after the call the output holds that
  function at every index.
-/
import proofs.«166180_j84524956386054_2_alg».proof.Proof.NormBody
import proofs.«166180_j84524956386054_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! # Reading the layout operations at an index -/

/-- A lane sum of a [512, 1024] vector at row `p` is the sum over the row's entries. -/
theorem laneSum (v : FVec Ideal S512x1024 .f32) (h : S512x1024.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 1024, v (ix2 p k) := by
  refine (Ideal.multiReduction_add_single v _ h hφ hacc (ix1 p)).trans ?_
  refine Finset.sum_congr rfl fun k _ => congrArg v ?_
  funext a; apply Fin.ext
  match a with
  | ⟨0, _⟩ => rfl
  | ⟨1, _⟩ => rfl

/-- A [512] vector viewed as a column [512, 1] reads its entry `p` at `(p, 0)`. -/
theorem colCast (v : FVec Ideal S512 .f32) (h : S512.ShapeCasts S512x1) (p : Fin 512) (z : Fin 1) :
    shapeCast S512x1 v h (ix2 p z) = v (ix1 p) := by
  refine shapeCast_apply v h (ix2 p z) (ix1 p) ?_
  rw [Shape.rowMajor_val_one, Shape.rowMajor_val_two]
  show p.val = p.val * 1 + z.val
  omega

/-- A column [512, 1] spread over [512, 1024] reads its entry `(p, 0)` at every `(p, q)`. -/
theorem colSpread (v : FVec Ideal S512x1 .f32) (h : S512x1.Broadcasts S512x1024) (p : Fin 512) (q : Fin 1024) :
    broadcastTo S512x1024 v h (ix2 p q) = v (ix2 p (0 : Fin 1)) := by
  refine broadcastTo_apply v h (ix2 p q) (ix2 p (0 : Fin 1)) fun a => ?_
  match a with
  | ⟨0, _⟩ => rfl
  | ⟨1, _⟩ => rfl

/-- A scaled entry computed on a block whose row `p` is row `r` of the array `A` is the array's scaled entry. -/
theorem unit_of_block (A : Cert.Spec.Arr) (X : Vec Ideal S512x1024 .f32) (p : Fin 512) (q : Fin 1024) (r : Fin 4096)
    (hX : ∀ k : Fin 1024, X (ix2 p k) = A (ix2 r k)) :
    X (ix2 p q) * Ideal.div Cert.Spec.one (max (Ideal.sqrt (∑ k : Fin 1024, X (ix2 p k) * X (ix2 p k))) Cert.Spec.eps)
      = Cert.Spec.unitK A r q := by
  unfold Cert.Spec.unitK Cert.Spec.nrm Cert.Spec.sumSq
  rw [hX q, Finset.sum_congr rfl fun k _ => by rw [hX k]]

/-- The whole-block rectangle's offsets are zero. -/
theorem hz : (![0, 0] : Fin 2 → Nat) = fun _ => 0 := funext fun a => by fin_cases a <;> rfl

-- the core's buffer contents when a region is entered
variable (V : (c : Dev nD) → (b : Ref sig .tc) → Buf (Elt Ideal) ((c : Thread nD τ).loc b))

/-! # Region 0: the array `main_v0` after the region, from `main_arg0` as the region finds it -/

/-- The body's stored vector at `(p, q)`: the entry times the reciprocal of its row's clamped norm. The lane sum is
    the sum over the row; the column of sums, square-rooted and clamped below by ε, divides 1; the column of
    reciprocals is spread along each row and multiplies the block; the change of format is the identity. -/
theorem pay0_apply (x0 : Vec Ideal S512x1024 .f32) (p : Fin 512) (q : Fin 1024) :
    k0_pay1 x0 (ix2 p q)
      = x0 (ix2 p q) * Ideal.div Cert.Spec.one (max (Ideal.sqrt (∑ k : Fin 1024, x0 (ix2 p k) * x0 (ix2 p k))) Cert.Spec.eps) := by
  unfold k0_pay1
  show x0 (ix2 p q) * broadcastTo S512x1024 _ _ (ix2 p q) = _
  rw [colSpread]
  show x0 (ix2 p q) * Ideal.div (Ideal.ofBits .f32 0x3F800000#32) (max (Ideal.sqrt (shapeCast S512x1 _ _ (ix2 p (0 : Fin 1)))) (Ideal.ofBits .f32 0x322BCC77#32)) = _
  rw [colCast]
  refine congrArg (fun s => x0 (ix2 p q) * Ideal.div Cert.Spec.one (max (Ideal.sqrt s) Cert.Spec.eps)) ?_
  exact laneSum _ _ _ _ p

/-- The index maps, decided over the grid: point `t`'s block is block-row `t` of the array, for the input and for
    the output. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The input block at point `t`, read at `(p, k)`, is the array at row `512 t + p`, column `k`. -/
theorem iblk0_apply (c : Dev nD) (t : Fin cfg0.N) (p : Fin 512) (k : Fin 1024) (r : Fin 4096) (hr : r.val = 512 * t.val + p.val) :
    (iblk0 V c 0 t : Vec Ideal S512x1024 .f32) (ix2 p k) = (V c main_arg0 : Cert.Spec.Arr) (ix2 r k) := by
  obtain ⟨e0, e1, -, -⟩ := idx0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- What the output array ends holding: every entry scaled by the reciprocal of its row's clamped norm. -/
abbrev G0 (c : Dev nD) : Cert.Spec.Arr := fun i => Cert.Spec.unitK (V c main_arg0) (i 0) (i 1)

/-- What point `t` writes back is block `t` of `G0`: an entry of the stored vector depends on its own row of the
    input block only, and that row is a whole row of the array. -/
theorem flushed0_eq (c : Dev nD) (t : Fin cfg0.N) :
    (dat0 V c).flushed 1 t = ((cfg0.win 1).blk t).view.read (Elt Ideal) (G0 V c) := by
  have ht : t.val < 8 := Nat.lt_of_lt_of_eq t.isLt N_0
  obtain ⟨-, -, e2, e3⟩ := idx0 t
  show (cfg0.win 1).cut (grid0.coords t) ((dat0 V c).after 1 t) = _
  rw [after0_1]
  unfold out0_1
  rw [View.canon_unit_zero hz]
  simp only [View.ld_unit_zero (S := S512x1024) hz]
  funext j
  obtain ⟨p, q, rfl⟩ : ∃ (p : Fin 512) (q : Fin 1024), j = ix2 p q := ⟨j 0, j 1, eq_ix2 j⟩
  show k0_pay1 (iblk0 V c 0 t) (ix2 p q) = G0 V c (((cfg0.win 1).blk t).view.emb (ix2 p q))
  refine (pay0_apply _ p q).trans ?_
  refine (unit_of_block (V c main_arg0) (iblk0 V c 0 t) p q ⟨512 * t.val + p.val, by omega⟩
    (fun k => iblk0_apply V c t p k _ rfl)).trans ?_
  show Cert.Spec.unitK (V c main_arg0) _ _ = Cert.Spec.unitK (V c main_arg0) _ _
  congr 1
  · apply Fin.ext
    show 512 * t.val + p.val = win0_1.index t (0 : Fin 2) * 512 + 1 * p.val
    omega
  · apply Fin.ext
    show q.val = win0_1.index t (1 : Fin 2) * 1024 + 1 * q.val
    omega

/-- An index of the array is in point `t`'s block iff each coordinate is in the block's range on its axis. -/
theorem mem_blk0 (t : Fin cfg0.N) (i : S4096x1024.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0).slice (win0_1.rect t)).set ↔ _
  rw [View.set_slice_whole, Rect.mem_set_unit]
  exact Iff.rfl

/-- The eight blocks tile the array (row `r` is in block `r / 512`), so it ends holding `G0`. -/
theorem final0 (c : Dev nD) : (dat0 V c).arrAt 1 cfg0.N = G0 V c :=
  (dat0 V c).arrAt_eq_of_cover 1 (G0 V c) (fun t _ => flushed0_eq V c t) fun i => by
    have h0 : (i 0).val < 4096 := (i 0).isLt
    have h1 : (i 1).val < 1024 := (i 1).isLt
    have hN : cfg0.N = 8 := N_0
    refine ⟨⟨(i 0).val / 512, by rw [hN]; omega⟩, flush0_1 _, ?_⟩
    obtain ⟨-, -, e2, e3⟩ := idx0 ⟨(i 0).val / 512, by rw [hN]; omega⟩
    rw [mem_blk0]
    intro a
    match a with
    | ⟨0, _⟩ =>
      show win0_1.index _ (0 : Fin 2) * 512 ≤ (i 0).val ∧ (i 0).val < win0_1.index _ (0 : Fin 2) * 512 + 512
      rw [e2]; show (i 0).val / 512 * 512 ≤ (i 0).val ∧ (i 0).val < (i 0).val / 512 * 512 + 512; omega
    | ⟨1, _⟩ =>
      show win0_1.index _ (1 : Fin 2) * 1024 ≤ (i 1).val ∧ (i 1).val < win0_1.index _ (1 : Fin 2) * 1024 + 1024
      rw [e3]; omega

/-- The array after region 0, entry by entry. -/
theorem arr0 (c : Dev nD) (r : Fin 4096) (k : Fin 1024) :
    (dat0 (F := Ideal) V c).arrAt 1 cfg0.N (ix2 r k) = Cert.Spec.unitK (V c main_arg0) r k := by
  rw [final0]

/-! # Region 1: the array `main_v1` after the region, from `main_arg1` as the region finds it -/

/-- The body's stored vector at `(p, q)`: the entry times the reciprocal of its row's clamped norm. The lane sum is
    the sum over the row; the column of sums, square-rooted and clamped below by ε, divides 1; the column of
    reciprocals is spread along each row and multiplies the block; the change of format is the identity. -/
theorem pay1_apply (x0 : Vec Ideal S512x1024 .f32) (p : Fin 512) (q : Fin 1024) :
    k1_pay1 x0 (ix2 p q)
      = x0 (ix2 p q) * Ideal.div Cert.Spec.one (max (Ideal.sqrt (∑ k : Fin 1024, x0 (ix2 p k) * x0 (ix2 p k))) Cert.Spec.eps) := by
  unfold k1_pay1
  show x0 (ix2 p q) * broadcastTo S512x1024 _ _ (ix2 p q) = _
  rw [colSpread]
  show x0 (ix2 p q) * Ideal.div (Ideal.ofBits .f32 0x3F800000#32) (max (Ideal.sqrt (shapeCast S512x1 _ _ (ix2 p (0 : Fin 1)))) (Ideal.ofBits .f32 0x322BCC77#32)) = _
  rw [colCast]
  refine congrArg (fun s => x0 (ix2 p q) * Ideal.div Cert.Spec.one (max (Ideal.sqrt s) Cert.Spec.eps)) ?_
  exact laneSum _ _ _ _ p

/-- The index maps, decided over the grid: point `t`'s block is block-row `t` of the array, for the input and for
    the output. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0)

/-- The input block at point `t`, read at `(p, k)`, is the array at row `512 t + p`, column `k`. -/
theorem iblk1_apply (c : Dev nD) (t : Fin cfg1.N) (p : Fin 512) (k : Fin 1024) (r : Fin 4096) (hr : r.val = 512 * t.val + p.val) :
    (iblk1 V c 0 t : Vec Ideal S512x1024 .f32) (ix2 p k) = (V c main_arg1 : Cert.Spec.Arr) (ix2 r k) := by
  obtain ⟨e0, e1, -, -⟩ := idx1 t
  show V c main_arg1 (((cfg1.win 0).blk t).view.emb (ix2 p k)) = V c main_arg1 (ix2 r k)
  refine congrArg _ (funext fun a => Fin.ext ?_)
  match a with
  | ⟨0, _⟩ => show win1_0.index t (0 : Fin 2) * 512 + 1 * p.val = r.val; omega
  | ⟨1, _⟩ => show win1_0.index t (1 : Fin 2) * 1024 + 1 * k.val = k.val; omega

/-- What the output array ends holding: every entry scaled by the reciprocal of its row's clamped norm. -/
abbrev G1 (c : Dev nD) : Cert.Spec.Arr := fun i => Cert.Spec.unitK (V c main_arg1) (i 0) (i 1)

/-- What point `t` writes back is block `t` of `G1`: an entry of the stored vector depends on its own row of the
    input block only, and that row is a whole row of the array. -/
theorem flushed1_eq (c : Dev nD) (t : Fin cfg1.N) :
    (dat1 V c).flushed 1 t = ((cfg1.win 1).blk t).view.read (Elt Ideal) (G1 V c) := by
  have ht : t.val < 8 := Nat.lt_of_lt_of_eq t.isLt N_1
  obtain ⟨-, -, e2, e3⟩ := idx1 t
  show (cfg1.win 1).cut (grid1.coords t) ((dat1 V c).after 1 t) = _
  rw [after1_1]
  unfold out1_1
  rw [View.canon_unit_zero hz]
  simp only [View.ld_unit_zero (S := S512x1024) hz]
  funext j
  obtain ⟨p, q, rfl⟩ : ∃ (p : Fin 512) (q : Fin 1024), j = ix2 p q := ⟨j 0, j 1, eq_ix2 j⟩
  show k1_pay1 (iblk1 V c 0 t) (ix2 p q) = G1 V c (((cfg1.win 1).blk t).view.emb (ix2 p q))
  refine (pay1_apply _ p q).trans ?_
  refine (unit_of_block (V c main_arg1) (iblk1 V c 0 t) p q ⟨512 * t.val + p.val, by omega⟩
    (fun k => iblk1_apply V c t p k _ rfl)).trans ?_
  show Cert.Spec.unitK (V c main_arg1) _ _ = Cert.Spec.unitK (V c main_arg1) _ _
  congr 1
  · apply Fin.ext
    show 512 * t.val + p.val = win1_1.index t (0 : Fin 2) * 512 + 1 * p.val
    omega
  · apply Fin.ext
    show q.val = win1_1.index t (1 : Fin 2) * 1024 + 1 * q.val
    omega

/-- An index of the array is in point `t`'s block iff each coordinate is in the block's range on its axis. -/
theorem mem_blk1 (t : Fin cfg1.N) (i : S4096x1024.Idx) :
    i ∈ ((cfg1.win 1).blk t).view.set ↔ ∀ a : Fin 2, win1_1.index t a * S512x1024.size a ≤ (i a).val ∧ (i a).val < win1_1.index t a * S512x1024.size a + S512x1024.size a := by
  show i ∈ ((View.whole main_v1).slice (win1_1.rect t)).set ↔ _
  rw [View.set_slice_whole, Rect.mem_set_unit]
  exact Iff.rfl

/-- The eight blocks tile the array (row `r` is in block `r / 512`), so it ends holding `G1`. -/
theorem final1 (c : Dev nD) : (dat1 V c).arrAt 1 cfg1.N = G1 V c :=
  (dat1 V c).arrAt_eq_of_cover 1 (G1 V c) (fun t _ => flushed1_eq V c t) fun i => by
    have h0 : (i 0).val < 4096 := (i 0).isLt
    have h1 : (i 1).val < 1024 := (i 1).isLt
    have hN : cfg1.N = 8 := N_1
    refine ⟨⟨(i 0).val / 512, by rw [hN]; omega⟩, flush1_1 _, ?_⟩
    obtain ⟨-, -, e2, e3⟩ := idx1 ⟨(i 0).val / 512, by rw [hN]; omega⟩
    rw [mem_blk1]
    intro a
    match a with
    | ⟨0, _⟩ =>
      show win1_1.index _ (0 : Fin 2) * 512 ≤ (i 0).val ∧ (i 0).val < win1_1.index _ (0 : Fin 2) * 512 + 512
      rw [e2]; show (i 0).val / 512 * 512 ≤ (i 0).val ∧ (i 0).val < (i 0).val / 512 * 512 + 512; omega
    | ⟨1, _⟩ =>
      show win1_1.index _ (1 : Fin 2) * 1024 ≤ (i 1).val ∧ (i 1).val < win1_1.index _ (1 : Fin 2) * 1024 + 1024
      rw [e3]; omega

/-- The array after region 1, entry by entry. -/
theorem arr1 (c : Dev nD) (r : Fin 4096) (k : Fin 1024) :
    (dat1 (F := Ideal) V c).arrAt 1 cfg1.N (ix2 r k) = Cert.Spec.unitK (V c main_arg1) r k := by
  rw [final1]

end Cert.KernelIdeal.Fr

end
-- ==== Proof.LossPieces.lean ====
/-
  What each case of the tiled-loss body leaves, as terms of its inputs.

  The body stores the whole of the one-word scratch, and at the last point of a sweep the whole of the output
  block, so what a buffer holds afterwards is the last store's vector.  That vector is the tile's partial sum added
  to what the scratch held when it was read: the zero just stored at the first point of a sweep, the previous
  point's contents later.  At the last point the output block is the scratch's new word spread over the block.
-/
import proofs.«166180_j84524956386054_2_alg».proof.Proof.LossBody
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.SL.Sem

variable {F : FTy → Type} [FloatOps F]

/-- The whole-buffer rectangle's offsets are zero. -/
theorem hz2 : (![0, 0] : Fin 2 → Nat) = fun _ => 0 := funext fun a => by fin_cases a <;> rfl

/-- The first point of a sweep: the scratch is zeroed, read back, and left at the zero plus the tile's partial sum. -/
theorem soutA_eq (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : cond2_0 i) (hc1 : ¬cond2_1 i) (x0 x1 : Vec F S1024x1024 .bf16) :
    sout2_A_0 c i arg2 harg2 arg3 harg3 arg4 harg4 arg5 harg5 hc0 hc1 x0 x1 = k2_pay2 x0 x1 (k2_pay1 (F := F)) := by
  unfold sout2_A_0
  rw [View.read_writes_eq_canon _ _ _ (scover2_A_0 c i arg2 harg2 arg3 harg3 arg4 harg4 arg5 harg5 hc0 hc1 x0 x1)]
  unfold kernelRun2_A
  dsimp only
  try sl_unfold_words
  rw [View.canon_cons_unit_zero hz2, View.readCov_unit_zero (S := S1x1) _ hz2]
  simp only [View.readAt_eq_ld, harg2.read_unread, harg3.read_unread, View.ld_unit_zero (S := S1024x1024) hz2]

/-- A middle point: the scratch is left at what it held plus the tile's partial sum. -/
theorem soutB_eq (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : ¬cond2_1 i) (x0 x1 : Vec F S1024x1024 .bf16) (xs0 : Vec F S1x1 .f32) :
    sout2_B_0 c i arg2 harg2 arg3 harg3 arg4 harg4 arg5 harg5 hc0 hc1 x0 x1 xs0 = k2_pay2 x0 x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  try sl_unfold_words
  rw [View.canon_unit_zero hz2]
  simp only [View.readAt_eq_ld, harg2.read_unread, harg3.read_unread, harg5.read_unread,
    View.ld_unit_zero (S := S1024x1024) hz2, View.ld_unit_zero (S := S1x1) hz2]

/-- The last point of a sweep: the scratch likewise. -/
theorem soutC_eq (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) :
    sout2_C_0 c i arg2 harg2 arg3 harg3 arg4 harg4 arg5 harg5 hc0 hc1 x0 x1 xs0 = k2_pay2 x0 x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  try sl_unfold_words
  rw [View.canon_unit_zero hz2]
  simp only [View.readAt_eq_ld, harg2.read_unread, harg3.read_unread, harg5.read_unread,
    View.ld_unit_zero (S := S1024x1024) hz2, View.ld_unit_zero (S := S1x1) hz2]

/-- The last point of a sweep: the output block is the scratch's new word, read back after its store, spread over
    the block. -/
theorem outC_eq (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S8x128 .f32) (harg4 : arg4.IsWhole) (arg5 : Memref sig .tc .vmem S1x1 .f32) (harg5 : arg5.IsWhole) (hc0 : ¬cond2_0 i) (hc1 : cond2_1 i) (x0 x1 : Vec F S1024x1024 .bf16) (xs0 : Vec F S1x1 .f32) :
    out2_C_2 c i arg2 harg2 arg3 harg3 arg4 harg4 arg5 harg5 hc0 hc1 x0 x1 xs0 = k2_pay3 (k2_pay2 x0 x1 xs0) := by
  unfold out2_C_2
  rw [View.read_writes_eq_canon _ _ _ (cover2_C_2 c i arg2 harg2 arg3 harg3 arg4 harg4 arg5 harg5 hc0 hc1 x0 x1 xs0)]
  unfold kernelRun2_C
  dsimp only
  try sl_unfold_words
  rw [View.canon_unit_zero hz2, View.readCov_unit_zero (S := S1x1) _ hz2]
  simp only [View.readAt_eq_ld, harg2.read_unread, harg3.read_unread, harg5.read_unread,
    View.ld_unit_zero (S := S1024x1024) hz2, View.ld_unit_zero (S := S1x1) hz2]

end Cert.KernelIdeal.Fr

end
-- ==== Proof.LossPay.lean ====
/-
  The loss kernel's three stored values, read at an index over the extended reals.

  The first store writes the zero splat.  The second adds to the running [1, 1] value the sum, over the rows r and
  the columns c of a 1024 × 1024 tile, of `(1 − Σ_k v3[r,k] · v5[c,k])²`: the product of the two tiles contracts
  their second axes, the square is summed along each row, the column of row sums is summed, and the shape casts
  between [1024] and [1024, 1], and between [1] and [1, 1], only rename indices.  The third store spreads the one
  entry of a [1, 1] value over [8, 128].
-/
import proofs.«166180_j84524956386054_2_alg».proof.Proof.Gen.KernelIdeal.Skeleton
import proofs.«166180_j84524956386054_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LossPay

open Cert.KernelIdeal Cert.KernelIdeal.Gen Idealize.ShloMosaic Idealize.ShloMosaic.ValueIdx

/-! ### Indices -/

/-- The shape [1, 1] has one index. -/
theorem idx11 (y : S1x1.Idx) : y = ix2 (0 : Fin 1) (0 : Fin 1) := by
  funext d
  match d with
  | ⟨0, _⟩ => exact Fin.ext (by have h := idx2_lt0 y; show (y 0).val = 0; omega)
  | ⟨1, _⟩ => exact Fin.ext (by have h := idx2_lt1 y; show (y 1).val = 0; omega)

/-! ### The product of the two tiles at an entry -/

theorem lhs_coord0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem rhs_coord0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- Into the zero splat, contracting the second axis of both tiles: entry (p, q) is `Σ_k l[p,k] · r[q,k]`. -/
theorem matmul_at (l r : FVec Ideal S1024x1024 .bf16) (p q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact lhs_coord0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact rhs_coord0 _ _
      | ⟨1, _⟩ => exact (dot_S1024x1024_S1024x1024_S1024x1024_1_1_0_0_n_n.rhsIdx_val_of_single rfl _ _).trans hk)
  rw [el, er]

/-! ### The two sums and the two renamings of indices -/

/-- The sum along axis 1 of [1024, 1024] at row r. -/
theorem rowSum_at (w : FVec Ideal S1024x1024 .f32) (hφ : FKind.Formats .f32)
    (hacc : (0x00000000#32 : BitVec 32) = 0x00000000#32) (r : Fin 1024) :
    multiReduction (F := Ideal) .add [1] S1024 w 0x00000000#32 reduces_S1024x1024_S1024 hφ hacc (ix1 r)
      = ∑ c : Fin 1024, w (ix2 r c) :=
  (Ideal.multiReduction_add_single w 0x00000000#32 reduces_S1024x1024_S1024 hφ hacc (ix1 r)).trans
    (Finset.sum_congr rfl fun c _ => congrArg w (funext fun a => Fin.ext (by
      match a with | ⟨0, _⟩ => rfl | ⟨1, _⟩ => rfl)))

/-- The sum along axis 0 of [1024, 1] at its one column. -/
theorem colSum_at (w : FVec Ideal S1024x1 .f32) (hφ : FKind.Formats .f32)
    (hacc : (0x00000000#32 : BitVec 32) = 0x00000000#32) (z : Fin 1) :
    multiReduction (F := Ideal) .add [0] S1 w 0x00000000#32 reduces_S1024x1_S1 hφ hacc (ix1 z)
      = ∑ r : Fin 1024, w (ix2 r z) :=
  (Ideal.multiReduction_add_single w 0x00000000#32 reduces_S1024x1_S1 hφ hacc (ix1 z)).trans
    (Finset.sum_congr rfl fun r _ => congrArg w (funext fun a => Fin.ext (by
      match a with | ⟨0, _⟩ => rfl | ⟨1, _⟩ => rfl)))

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The three stored values -/

/-- The first store writes zero. -/
theorem pay1_at (y : S1x1.Idx) : k2_pay1 (F := Ideal) y = 0 := by
  unfold k2_pay1
  simp only [shapeCast_self, broadcast_apply]
  exact Ideal.ofBits_zero_f32

/-- The second store: the running value plus the tile's sum of `(1 − Σ_k v3[r,k] · v5[c,k])²`. -/
theorem pay2_at (v3 v5 : Vec Ideal S1024x1024 .bf16) (v15 : Vec Ideal S1x1 .f32) (y : S1x1.Idx) :
    k2_pay2 v3 v5 v15 y = v15 y + ∑ r : Fin 1024, ∑ c : Fin 1024,
      (Cert.Spec.one - ∑ k : Fin 1024, v3 (ix2 r k) * v5 (ix2 c k))
        * (Cert.Spec.one - ∑ k : Fin 1024, v3 (ix2 r k) * v5 (ix2 c k)) := by
  obtain rfl : y = ix2 (0 : Fin 1) (0 : Fin 1) := idx11 y
  unfold k2_pay2
  simp only [shapeCast_self]
  rw [addf_apply]
  refine congrArg (v15 (ix2 (0 : Fin 1) (0 : Fin 1)) + ·) ?_
  rw [shapeCast_a_1a_apply]
  refine (colSum_at _ _ _ 0).trans ?_
  refine Finset.sum_congr rfl fun r _ => ?_
  rw [shapeCast_a_a1_apply]
  refine (rowSum_at _ _ _ r).trans ?_
  refine Finset.sum_congr rfl fun c _ => ?_
  rw [mulf_apply, subf_apply, broadcast_apply, matmul_at]
  rfl

/-- The third store spreads the one entry over [8, 128]. -/
theorem pay3_at (v23 : Vec Ideal S1x1 .f32) (y : S8x128.Idx) :
    k2_pay3 v23 y = v23 (ix2 (0 : Fin 1) (0 : Fin 1)) := by
  unfold k2_pay3
  simp only [shapeCast_self]
  exact broadcastTo_apply v23 broadcasts_S1x1_S8x128 y (ix2 (0 : Fin 1) (0 : Fin 1)) fun a =>
    match a with
    | ⟨0, _⟩ => by show 0 = if (1 : Nat) = 1 then 0 else _; rw [if_pos rfl]
    | ⟨1, _⟩ => by show 0 = if (1 : Nat) = 1 then 0 else _; rw [if_pos rfl]

end Cert.KernelIdeal.LossPay

end
-- ==== Proof.LossAcc.lean ====
/-
  The tiled loss at the ideal instance: what its scratch and its output block hold, point by point.

  When the third pallas_call is entered, `main_v0` and `main_v1` hold the two inputs with every row scaled by the
  reciprocal of its clamped norm (the first two calls' results).  At point t = 4·i + j the body reads rows
  1024·i … 1024·i + 1023 of the first and rows 1024·j … 1024·j + 1023 of the second, and adds to the scratch the sum over
  that tile of (1 − cos)², each row first.  So after point (i, j) the scratch holds the running sum over the tiles
  (i, 0) … (i, j), started from zero at j = 0; and at j = 3 every entry of the output block is that sweep's total.
-/
import proofs.«166180_j84524956386054_2_alg».proof.Proof.Run
import proofs.«166180_j84524956386054_2_alg».proof.Proof.NormValue
import proofs.«166180_j84524956386054_2_alg».proof.Proof.LossPieces
import proofs.«166180_j84524956386054_2_alg».proof.Proof.LossPay
import proofs.«166180_j84524956386054_2_alg».proof.Proof.Spec

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The first input array as launched. -/
abbrev argX (c : Dev nD) : Cert.Spec.Arr := m ((c : Thread nD τ).loc main_arg0)
/-- The second input array as launched. -/
abbrev argY (c : Dev nD) : Cert.Spec.Arr := m ((c : Thread nD τ).loc main_arg1)

/-! ## What the third pallas_call finds in its two input arrays -/

/-- `main_v0` holds the first input with every row scaled: the first call wrote it, the second did not touch it. -/
theorem Vc_v0 (c : Dev nD) : (Vc m ρ c main_v0 : Cert.Spec.Arr) = (fun i => Cert.Spec.unitK (argX m c) (i 0) (i 1) : Cert.Spec.Arr) :=
  (Wc_of_ne m ρ c main_v0 (by decide)).trans ((Wb_arr m ρ c 1).trans (final0 (Va m ρ) c))

/-- The second call finds the second input as launched: the first call did not touch it. -/
theorem Vb_arg1 (c : Dev nD) : (Vb m ρ c main_arg1 : Cert.Spec.Arr) = argY m c :=
  (Wb_of_ne m ρ c main_arg1 (by decide)).trans rfl

/-- `main_v1` holds the second input with every row scaled. -/
theorem Vc_v1 (c : Dev nD) : (Vc m ρ c main_v1 : Cert.Spec.Arr) = (fun i => Cert.Spec.unitK (argY m c) (i 0) (i 1) : Cert.Spec.Arr) := by
  refine (Wc_arr m ρ c 1).trans ((final1 (Vb m ρ) c).trans ?_)
  show (fun i => Cert.Spec.unitK (Vb m ρ c main_arg1) (i 0) (i 1) : Cert.Spec.Arr) = _
  rw [Vb_arg1]

/-! ## The blocks the body reads -/

/-- The index maps, decided over the grid: the first input's block row is t / 4, the second's is t mod 4. -/
theorem idxIn2 : ∀ t : Fin cfg2.N, win2_0.index t (0 : Fin 2) = t.val / 4 ∧ win2_0.index t (1 : Fin 2) = 0
    ∧ win2_1.index t (0 : Fin 2) = t.val % 4 ∧ win2_1.index t (1 : Fin 2) = 0 :=
  (by decide +kernel : ∀ t : Fin grid2.N, win2_0.index t (0 : Fin 2) = t.val / 4 ∧ win2_0.index t (1 : Fin 2) = 0
    ∧ win2_1.index t (0 : Fin 2) = t.val % 4 ∧ win2_1.index t (1 : Fin 2) = 0)

variable (V : (c : Dev nD) → (b : Ref sig .tc) → Buf (Elt Ideal) ((c : Thread nD τ).loc b))

/-- The first input's block at point `t`, read at `(p, k)`, is the array at row 1024·(t / 4) + p. -/
theorem iblk2_0_apply (c : Dev nD) (t : Fin cfg2.N) (p k : Fin 1024) (r : Fin 4096) (hr : r.val = 1024 * (t.val / 4) + p.val) :
    (iblk2 V c 0 t : Vec Ideal S1024x1024 .bf16) (ix2 p k) = (V c main_v0 : Cert.Spec.Arr) (ix2 r k) := by
  obtain ⟨e0, e1, -, -⟩ := idxIn2 t
  show V c main_v0 (((cfg2.win 0).blk t).view.emb (ix2 p k)) = V c main_v0 (ix2 r k)
  refine congrArg _ (funext fun a => Fin.ext ?_)
  match a with
  | ⟨0, _⟩ => show win2_0.index t (0 : Fin 2) * 1024 + 1 * p.val = r.val; omega
  | ⟨1, _⟩ => show win2_0.index t (1 : Fin 2) * 1024 + 1 * k.val = k.val; omega

/-- The second input's block at point `t`, read at `(p, k)`, is the array at row 1024·(t mod 4) + p. -/
theorem iblk2_1_apply (c : Dev nD) (t : Fin cfg2.N) (p k : Fin 1024) (r : Fin 4096) (hr : r.val = 1024 * (t.val % 4) + p.val) :
    (iblk2 V c 1 t : Vec Ideal S1024x1024 .bf16) (ix2 p k) = (V c main_v1 : Cert.Spec.Arr) (ix2 r k) := by
  obtain ⟨-, -, e2, e3⟩ := idxIn2 t
  show V c main_v1 (((cfg2.win 1).blk t).view.emb (ix2 p k)) = V c main_v1 (ix2 r k)
  refine congrArg _ (funext fun a => Fin.ext ?_)
  match a with
  | ⟨0, _⟩ => show win2_1.index t (0 : Fin 2) * 1024 + 1 * p.val = r.val; omega
  | ⟨1, _⟩ => show win2_1.index t (1 : Fin 2) * 1024 + 1 * k.val = k.val; omega

/-! ## A tile's partial sum -/

/-- Over blocks whose rows are the scaled rows of tile-rows `i` and `j`, the body's double sum is the tile's partial sum. -/
theorem tile_eq (x y : Cert.Spec.Arr) (X Y : Vec Ideal S1024x1024 .bf16) (i j : Fin 4)
    (hX : ∀ p k : Fin 1024, X (ix2 p k) = Cert.Spec.unitK x (Cert.Spec.rowOf i p) k)
    (hY : ∀ p k : Fin 1024, Y (ix2 p k) = Cert.Spec.unitK y (Cert.Spec.rowOf j p) k) :
    (∑ r : Fin 1024, ∑ c : Fin 1024,
        (Cert.Spec.one - ∑ k : Fin 1024, X (ix2 r k) * Y (ix2 c k)) * (Cert.Spec.one - ∑ k : Fin 1024, X (ix2 r k) * Y (ix2 c k)))
      = Cert.Spec.part x y i j := by
  unfold Cert.Spec.part Cert.Spec.sqK
  refine Finset.sum_congr rfl fun r _ => Finset.sum_congr rfl fun c _ => ?_
  have e : (∑ k : Fin 1024, X (ix2 r k) * Y (ix2 c k))
      = ∑ k : Fin 1024, Cert.Spec.unitK x (Cert.Spec.rowOf i r) k * Cert.Spec.unitK y (Cert.Spec.rowOf j c) k :=
    Finset.sum_congr rfl fun k _ => by rw [hX r k, hY c k]
  rw [e]

/-- At point t = 4·i + j the two blocks the body reads are the scaled rows of tile-rows `i` and `j`. -/
theorem tile_at (c : Dev nD) (t : Fin cfg2.N) (i j : Fin 4) (ht : t.val = 4 * i.val + j.val)
    (X Y : Vec Ideal S1024x1024 .bf16) (hX : X = iblk2 (Vc m ρ) c 0 t) (hY : Y = iblk2 (Vc m ρ) c 1 t) :
    (∑ r : Fin 1024, ∑ cc : Fin 1024,
        (Cert.Spec.one - ∑ k : Fin 1024, X (ix2 r k) * Y (ix2 cc k)) * (Cert.Spec.one - ∑ k : Fin 1024, X (ix2 r k) * Y (ix2 cc k)))
      = Cert.Spec.part (argX m c) (argY m c) i j := by
  have hi : i.val < 4 := i.isLt
  have hj : j.val < 4 := j.isLt
  subst hX hY
  refine tile_eq (argX m c) (argY m c) _ _ i j (fun p k => ?_) (fun p k => ?_)
  · rw [iblk2_0_apply (Vc m ρ) c t p k (Cert.Spec.rowOf i p) (by show 1024 * i.val + p.val = 1024 * (t.val / 4) + p.val; omega), Vc_v0]
  · rw [iblk2_1_apply (Vc m ρ) c t p k (Cert.Spec.rowOf j p) (by show 1024 * j.val + p.val = 1024 * (t.val % 4) + p.val; omega), Vc_v1]

/-! ## The scratch along a sweep -/

/-- After point 4·i + j the scratch's word is the running sum over the tiles (i, 0) … (i, j). -/
theorem scratch_at (c : Dev nD) (i : Fin 4) : ∀ (j : ℕ) (hj : j < 4) (hn : 4 * i.val + j < cfg2.N),
    (outsAt2 (Vc m ρ) c (4 * i.val + j) hn).2 (ix2 0 0) = Cert.Spec.accUpTo (argX m c) (argY m c) i j hj := by
  have hi : i.val < 4 := i.isLt
  intro j
  induction j with
  | zero =>
    intro hj hn
    have h0 : (⟨4 * i.val + 0, hn⟩ : Fin cfg2.N).val % 4 = 0 := by show (4 * i.val + 0) % 4 = 0; omega
    have h1 : ¬(⟨4 * i.val + 0, hn⟩ : Fin cfg2.N).val % 4 = 3 := by show ¬(4 * i.val + 0) % 4 = 3; omega
    have e := outsAt2_A (Vc m ρ) c ⟨4 * i.val + 0, hn⟩ h0 h1
    rw [show (outsAt2 (Vc m ρ) c (4 * i.val + 0) hn) = outsAt2 (Vc m ρ) c (⟨4 * i.val + 0, hn⟩ : Fin cfg2.N).val (⟨4 * i.val + 0, hn⟩ : Fin cfg2.N).isLt from rfl, e]
    dsimp only
    rw [soutA_eq, Cert.KernelIdeal.LossPay.pay2_at, Cert.KernelIdeal.LossPay.pay1_at,
      tile_at m ρ c ⟨4 * i.val + 0, hn⟩ i ⟨0, hj⟩ rfl _ _ rfl rfl]
    rfl
  | succ j ih =>
    intro hj hn
    have hn' : 4 * i.val + j < cfg2.N := by omega
    have h0 : ¬(⟨4 * i.val + (j + 1), hn⟩ : Fin cfg2.N).val % 4 = 0 := by show ¬(4 * i.val + (j + 1)) % 4 = 0; omega
    have hprev : (outsAt2 (Vc m ρ) c ((⟨4 * i.val + (j + 1), hn⟩ : Fin cfg2.N).val - 1) (Nat.lt_of_le_of_lt (Nat.sub_le _ _) (⟨4 * i.val + (j + 1), hn⟩ : Fin cfg2.N).isLt)).2 (ix2 0 0)
        = Cert.Spec.accUpTo (argX m c) (argY m c) i j (by omega) := by
      have := ih (by omega) hn'
      convert this using 3
      show 4 * i.val + (j + 1) - 1 = 4 * i.val + j
      omega
    by_cases h1 : (⟨4 * i.val + (j + 1), hn⟩ : Fin cfg2.N).val % 4 = 3
    · have e := outsAt2_C (Vc m ρ) c ⟨4 * i.val + (j + 1), hn⟩ h0 h1
      rw [show (outsAt2 (Vc m ρ) c (4 * i.val + (j + 1)) hn) = outsAt2 (Vc m ρ) c (⟨4 * i.val + (j + 1), hn⟩ : Fin cfg2.N).val (⟨4 * i.val + (j + 1), hn⟩ : Fin cfg2.N).isLt from rfl, e]
      dsimp only
      rw [soutC_eq, Cert.KernelIdeal.LossPay.pay2_at, hprev,
        tile_at m ρ c ⟨4 * i.val + (j + 1), hn⟩ i ⟨j + 1, hj⟩ rfl _ _ rfl rfl]
      rfl
    · have e := outsAt2_B (Vc m ρ) c ⟨4 * i.val + (j + 1), hn⟩ h0 h1
      rw [show (outsAt2 (Vc m ρ) c (4 * i.val + (j + 1)) hn) = outsAt2 (Vc m ρ) c (⟨4 * i.val + (j + 1), hn⟩ : Fin cfg2.N).val (⟨4 * i.val + (j + 1), hn⟩ : Fin cfg2.N).isLt from rfl, e]
      dsimp only
      rw [soutB_eq, Cert.KernelIdeal.LossPay.pay2_at, hprev,
        tile_at m ρ c ⟨4 * i.val + (j + 1), hn⟩ i ⟨j + 1, hj⟩ rfl _ _ rfl rfl]
      rfl

/-! ## The output block at the last point of a sweep -/

/-- At a point with t mod 4 = 3 every entry of the output block is the sweep's total. -/
theorem out_at (c : Dev nD) (t : Fin cfg2.N) (h3 : t.val % 4 = 3) (y : S8x128.Idx) :
    (outsAt2 (Vc m ρ) c t.val t.isLt).1 y
      = Cert.Spec.accUpTo (argX m c) (argY m c) ⟨t.val / 4, by have := Nat.lt_of_lt_of_eq t.isLt N_2; omega⟩ 3 (by omega) := by
  have hN : t.val < 16 := Nat.lt_of_lt_of_eq t.isLt N_2
  have h0 : ¬t.val % 4 = 0 := by omega
  have ht : t.val = 4 * (t.val / 4) + 3 := by omega
  rw [outsAt2_C (Vc m ρ) c t h0 h3]
  dsimp only
  rw [outC_eq, Cert.KernelIdeal.LossPay.pay3_at, Cert.KernelIdeal.LossPay.pay2_at]
  have hprev : (outsAt2 (Vc m ρ) c (t.val - 1) (Nat.lt_of_le_of_lt (Nat.sub_le _ _) t.isLt)).2 (ix2 0 0)
      = Cert.Spec.accUpTo (argX m c) (argY m c) ⟨t.val / 4, by omega⟩ 2 (by omega) := by
    have := scratch_at m ρ c ⟨t.val / 4, by omega⟩ 2 (by omega) (Nat.lt_of_lt_of_eq (by omega : 4 * (t.val / 4) + 2 < 16) N_2.symm)
    convert this using 3
    show t.val - 1 = 4 * (t.val / 4) + 2
    omega
  rw [hprev, tile_at m ρ c t ⟨t.val / 4, by omega⟩ ⟨3, by omega⟩ ht _ _ rfl rfl]
  rfl

end Cert.KernelIdeal.Fr

end
-- ==== Proof.LossArr.lean ====
/-
  The tiled-loss call's output array after the region, from what its last-of-sweep points leave in the output block.

  The output `[32, 128]` is cut into four blocks `[8, 128]`; point `t = 4 i + j` of the grid has block `i`, and the
  block is written back only at the last point of a sweep, `j = 3`.  If at each such point the output block holds
  one value `g i` at every entry, the four written blocks tile the array, and the array ends holding `g (ρ / 8)` at
  every entry of row `ρ`.
-/
import proofs.«166180_j84524956386054_2_alg».proof.Proof.LossBody
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

/-- The output's index map, decided over the grid: point `t`'s block is block-row `t / 4`. -/
theorem idx2 : ∀ t : Fin cfg2.N, win2_2.index t (0 : Fin 2) = t.val / 4 ∧ win2_2.index t (1 : Fin 2) = 0 :=
  (by decide +kernel : ∀ t : Fin grid2.N, win2_2.index t (0 : Fin 2) = t.val / 4 ∧ win2_2.index t (1 : Fin 2) = 0)

/-- The array that holds `g (ρ / 8)` at every entry of row `ρ`. -/
abbrev G2 (g : Fin 4 → EReal) : S32x128.Idx → EReal :=
  fun idx => g ⟨(idx 0).val / 8, by have h : (idx 0).val < 32 := (idx 0).isLt; omega⟩

-- the core's buffer contents when the region is entered
variable (V : (c : Dev nD) → (b : Ref sig .tc) → Buf (Elt Ideal) ((c : Thread nD τ).loc b))

/-- What a last-of-sweep point `t` writes back is block `t` of `G2 g`: row `8 (t / 4) + y` of the array, `y < 8`, has
    `(8 (t / 4) + y) / 8 = t / 4`. -/
theorem flushed2_eq (c : Dev nD) (g : Fin 4 → EReal)
    (hout : ∀ (t : Fin cfg2.N) (h3 : t.val % 4 = 3) (y : S8x128.Idx),
      (outsAt2 V c t.val t.isLt).1 y = g ⟨t.val / 4, by have := Nat.lt_of_lt_of_eq t.isLt N_2; omega⟩)
    (t : Fin cfg2.N) (hf : (cfg2.win 2).flush t = true) :
    (dat2 V c).flushed 2 t = ((cfg2.win 2).blk t).view.read (Elt Ideal) (G2 g) := by
  have ht : t.val < 16 := Nat.lt_of_lt_of_eq t.isLt N_2
  have h3 : t.val % 4 = 3 := (flush2_2 t).mp hf
  obtain ⟨e0, e1⟩ := idx2 t
  show (cfg2.win 2).cut (grid2.coords t) ((dat2 V c).after 2 t) = _
  rw [after2_2]
  funext j
  show (outsAt2 V c t.val t.isLt).1 j = G2 g (((cfg2.win 2).blk t).view.emb j)
  refine (hout t h3 j).trans ?_
  show g _ = g _
  refine congrArg g (Fin.ext ?_)
  show t.val / 4 = (win2_2.index t (0 : Fin 2) * 8 + 1 * (j 0).val) / 8
  have hj : (j 0).val < 8 := (j 0).isLt
  omega

/-- An index of the array is in point `t`'s block iff each coordinate is in the block's range on its axis. -/
theorem mem_blk2 (t : Fin cfg2.N) (i : S32x128.Idx) :
    i ∈ ((cfg2.win 2).blk t).view.set ↔ ∀ a : Fin 2, win2_2.index t a * S8x128.size a ≤ (i a).val ∧ (i a).val < win2_2.index t a * S8x128.size a + S8x128.size a := by
  show i ∈ ((View.whole main_v2).slice (win2_2.rect t)).set ↔ _
  rw [View.set_slice_whole, Rect.mem_set_unit]
  exact Iff.rfl

/-- The four written blocks tile the array (row `ρ` is in the block of the last point of sweep `ρ / 8`), so it ends
    holding `G2 g`. -/
theorem final2_of (c : Dev nD) (g : Fin 4 → EReal)
    (hout : ∀ (t : Fin cfg2.N) (h3 : t.val % 4 = 3) (y : S8x128.Idx),
      (outsAt2 V c t.val t.isLt).1 y = g ⟨t.val / 4, by have := Nat.lt_of_lt_of_eq t.isLt N_2; omega⟩) :
    (dat2 (F := Ideal) V c).arrAt 2 cfg2.N
      = fun idx : S32x128.Idx => g ⟨(idx 0).val / 8, by have h : (idx 0).val < 32 := (idx 0).isLt; omega⟩ :=
  (dat2 V c).arrAt_eq_of_cover 2 (G2 g) (fun t hf => flushed2_eq V c g hout t hf) fun i => by
    have h0 : (i 0).val < 32 := (i 0).isLt
    have h1 : (i 1).val < 128 := (i 1).isLt
    have hN : cfg2.N = 16 := N_2
    have hlt : 4 * ((i 0).val / 8) + 3 < cfg2.N := by rw [hN]; omega
    refine ⟨⟨4 * ((i 0).val / 8) + 3, hlt⟩, (flush2_2 _).mpr (by show (4 * ((i 0).val / 8) + 3) % 4 = 3; omega), ?_⟩
    obtain ⟨e0, e1⟩ := idx2 ⟨4 * ((i 0).val / 8) + 3, hlt⟩
    rw [mem_blk2]
    intro a
    match a with
    | ⟨0, _⟩ =>
      show win2_2.index _ (0 : Fin 2) * 8 ≤ (i 0).val ∧ (i 0).val < win2_2.index _ (0 : Fin 2) * 8 + 8
      rw [e0]; show (4 * ((i 0).val / 8) + 3) / 4 * 8 ≤ (i 0).val ∧ (i 0).val < (4 * ((i 0).val / 8) + 3) / 4 * 8 + 8; omega
    | ⟨1, _⟩ =>
      show win2_2.index _ (1 : Fin 2) * 128 ≤ (i 1).val ∧ (i 1).val < win2_2.index _ (1 : Fin 2) * 128 + 128
      rw [e1]; omega

end Cert.KernelIdeal.Fr

end
-- ==== Proof.HostTail.lean ====
/-
  The five host operations that close the kernel's program, read over the extended reals.

  A [32, 128] array is viewed as [4, 8, 128]; its entries (i, 0, 0) are kept, as a [4, 1, 1] array, then as a [4]
  array; the host sums them from `0`.  Row-major, entry (i, 0, 0) of [4, 8, 128] sits at position 1024 · i, which is
  the position of entry (8 i, 0) of [32, 128]: the result is `0 + Σ_{i < 4} x[8 i, 0]`.
-/
import proofs.«166180_j84524956386054_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.TcCoe Idealize.SL.Sem
  Idealize.ShloMosaic.StableHlo Idealize.ShloMosaic.ValueIdx

/-! ### The three renamings of indices -/

/-- [32, 128] viewed as [4, 8, 128]: entry (i, 0, 0) is entry (8 i, 0). -/
theorem view_at (x : S32x128.Idx → EReal) (h : S32x128.ShapeCasts S4x8x128) (i : Fin 4) :
    shapeCast S4x8x128 x h (ix3 i (0 : Fin 8) (0 : Fin 128))
      = x (ix2 (⟨8 * i.val, by omega⟩ : Fin 32) (0 : Fin 128)) :=
  shapeCast_apply x h _ _ (by
    rw [Shape.rowMajor_val_three, Shape.rowMajor_val_two]
    show (8 * i.val) * 128 + 0 = (i.val * 8 + 0) * 128 + 0
    omega)

/-- The slice at offsets (0, 0, 0) of extents [4, 1, 1]: entry (i, u, v) is entry (i, 0, 0). -/
theorem slice_at (z : S4x8x128.Idx → EReal) (h : S4x8x128.Slices ![0, 0, 0] S4x1x1) (i : Fin 4) (u v : Fin 1) :
    extractStridedSlice S4x1x1 ![0, 0, 0] z h (ix3 i u v) = z (ix3 i (0 : Fin 8) (0 : Fin 128)) :=
  extractStridedSlice_apply ![0, 0, 0] z h _ _ fun a => by
    match a with
    | ⟨0, _⟩ => show i.val = 0 + i.val; omega
    | ⟨1, _⟩ => show 0 = 0 + u.val; omega
    | ⟨2, _⟩ => show 0 = 0 + v.val; omega

/-- [4, 1, 1] viewed as [4]: entry i is entry (i, 0, 0). -/
theorem column_at (y : S4x1x1.Idx → EReal) (h : S4x1x1.ShapeCasts S4) (i : Fin 4) :
    shapeCast S4 y h (ix1 i) = y (ix3 i (0 : Fin 1) (0 : Fin 1)) :=
  shapeCast_apply y h _ _ (by
    rw [Shape.rowMajor_val_three, Shape.rowMajor_val_one]
    show (i.val * 1 + 0) * 1 + 0 = i.val
    omega)

/-! ### The tail as a function of the [32, 128] array -/

/-- The host's sum, from `0`, of the entries (8 i, 0), i < 4, of a [32, 128] array. -/
abbrev tailOf (x : S32x128.Idx → EReal) : S_.Idx → EReal :=
  fun _ => 0 + ∑ i : Fin 4, x (ix2 (⟨8 * i.val, by omega⟩ : Fin 32) (0 : Fin 128))

/-- A rank-1 index set is its one coordinate range … -/
def idxEquiv1 {n : Nat} : (⟨1, ![n]⟩ : Shape).Idx ≃ Fin n where
  toFun i := i 0
  invFun k := ix1 k
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The five operations' composed term, over any [32, 128] array, is `tailOf`. -/
theorem tail_fn (x : S32x128.Idx → EReal) (j : S_.Idx) :
    Host.reduceAdd (F := Ideal) (φ := .f32)
        (shapeCast S4 (extractStridedSlice S4x1x1 ![0, 0, 0] (shapeCast S4x8x128 x shapeCasts_S32x128_S4x8x128)
          slices_S4x8x128_S4x1x1_0_0_0) shapeCasts_S4x1x1_S4)
        (constant (F := Ideal) S_ .f32 0x00000000#32) reducesTo_S4_S_d0 h_S_ j
      = tailOf x j := by
  simp only [Host.reduceAdd, Ideal.hostReduceAdd_def]
  rw [Ideal.hostReduceAdd_total reducesTo_S4_S_d0 (fun b => b.elim0), sum_idx1]
  show Ideal.ofBits .f32 0x00000000#32 + _ = 0 + _
  rw [Ideal.ofBits_zero_f32]
  refine congrArg (0 + ·) (Finset.sum_congr rfl fun i _ => ?_)
  rw [column_at, slice_at, view_at]

/-! ### The result buffer after the five operations -/

/-- From any contents `W` of the buffers, the result buffer ends at `tailOf` of the [32, 128] buffer's contents. -/
theorem tail_value (W : Valuation τ sig (Elt Ideal)) :
    StableHlo.after (hostOps3 (F := Ideal)) W (Proc.devRef .tc main_v6)
      = tailOf (W (Proc.devRef .tc main_v2)) := by
  after_results
  funext j
  exact tail_fn (W (Proc.devRef .tc main_v2)) j

end Cert.KernelIdeal.Tail

end
-- ==== Proof.LossFinal.lean ====
/-
  The kernel's result at the ideal instance.

  After the tiled loss, row block i of `main_v2` (rows 8·i … 8·i + 7) holds, at every entry, the total of sweep i:
  the running sum over the tiles (i, 0) … (i, 3).  The host reads entry (8·i, 0) of each block and sums the four from
  zero.  That is the kernel's loss `kerLoss` of the two input arrays.
-/
import proofs.«166180_j84524956386054_2_alg».proof.Proof.LossAcc
import proofs.«166180_j84524956386054_2_alg».proof.Proof.LossArr
import proofs.«166180_j84524956386054_2_alg».proof.Proof.HostTail

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- Sweep `i`'s total. -/
abbrev tot (c : Dev nD) (i : Fin 4) : EReal := Cert.Spec.accUpTo (argX m c) (argY m c) i 3 (by omega)

/-- `main_v2` after the tiled loss: every entry of row block i is sweep i's total. -/
theorem Wd_v2 (c : Dev nD) :
    (Wd m ρ c (Proc.devRef .tc main_v2) : S32x128.Idx → EReal)
      = fun idx : S32x128.Idx => tot m c ⟨(idx 0).val / 8, by have h : (idx 0).val < 32 := (idx 0).isLt; omega⟩ :=
  (Wd_arr m ρ c 2).trans (final2_of (Vc m ρ) c (tot m c) (fun t h3 y => out_at m ρ c t h3 y))

/-- The host's sum over the four row blocks of an array that is constant `g i` on row block i is `0 + Σ_i g i`: entry
    (8·i, 0) lies in row block 8·i / 8 = i. -/
theorem tail_tot (g : Fin 4 → EReal) (j : S_.Idx) :
    Cert.KernelIdeal.Tail.tailOf (fun idx : S32x128.Idx => g ⟨(idx 0).val / 8, by have h : (idx 0).val < 32 := (idx 0).isLt; omega⟩) j
      = 0 + ∑ i : Fin 4, g i := by
  dsimp only [Cert.KernelIdeal.Tail.tailOf]
  refine congrArg (fun s => (0 : EReal) + s) (Finset.sum_congr rfl fun i _ => congrArg g (Fin.ext ?_))
  show 8 * i.val / 8 = i.val
  omega

/-- The result buffer after the host's closing operations: the kernel's loss. -/
theorem value (c : Dev nD) :
    We m ρ c (Proc.devRef .tc main_v6) = fun _ => Cert.Spec.kerLoss (argX m c) (argY m c) := by
  refine (Cert.KernelIdeal.Tail.tail_value (Wd m ρ c)).trans ?_
  rw [Wd_v2]
  funext j
  unfold Cert.Spec.kerLoss
  exact tail_tot (tot m c) j

/-- Every weakly fair execution of the idealized kernel terminates, nothing faulting, with the result at the kernel's
    loss of the two inputs and the inputs as launched. -/
theorem run_value : θ_run defs (onTc (τ := τ) (main (F := Ideal))) ⟨m, fun _ => 0, ρ⟩ (fun r => ∀ c : Dev nD,
      r.2.mem ((c.tc : Thread nD τ).loc main_v6) = (fun _ => Cert.Spec.kerLoss (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans (value m ρ c),
     (h c _ (mem_uc main_arg0 (by decide))).trans (We_main_arg0 m ρ c),
     (h c _ (mem_uc main_arg1 (by decide))).trans (We_main_arg1 m ρ c)⟩) (run_all m ρ)

end Cert.KernelIdeal.Fr

end
-- ==== Proof.RefValue.lean ====
/-
  The reference's result, as a function of its two argument arrays over the extended reals, is the
  specification's `refLoss`.

  Each stage of the reference is read at an index: a row's sum of squares from the host's `0`, its square root,
  the maximum with ε, the entry divided by that clamped norm, the contraction over the shared axis, `1 − cos`, its
  square, and the host's total sum from `0`.  The indices the stages pass to one another are identified with the
  coordinate form `ix2 r k`; nothing else is needed, since every stage is the corresponding definition of the
  specification read at those coordinates.
-/
import proofs.«166180_j84524956386054_2_alg».proof.Proof.Spec
import proofs.«166180_j84524956386054_2_alg».proof.Proof.Gen.ReferenceIdeal.Run
import proofs.«166180_j84524956386054_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ### The indices the stages pass on, in coordinates -/

theorem idx_call0_v1 (r : Fin 4096) (k : Fin 1024) : idx_main_call0_v1 (ix1 r) k = ix2 r k := by
  funext d; match d with | ⟨0, _⟩ => rfl | ⟨1, _⟩ => rfl
theorem idx_call1_v1 (r : Fin 4096) (k : Fin 1024) : idx_main_call1_v1 (ix1 r) k = ix2 r k := by
  funext d; match d with | ⟨0, _⟩ => rfl | ⟨1, _⟩ => rfl
theorem idx_call0_v2 (r : Fin 4096) (z : Fin 1) : idx_main_call0_v2 (ix2 r z) = ix1 r := by
  funext d; match d with | ⟨0, _⟩ => rfl
theorem idx_call1_v2 (r : Fin 4096) (z : Fin 1) : idx_main_call1_v2 (ix2 r z) = ix1 r := by
  funext d; match d with | ⟨0, _⟩ => rfl
theorem idx_v3 (r : Fin 4096) (k : Fin 1024) : idx_main_v3 (ix2 r k) = ix2 r (⟨0, Nat.one_pos⟩ : Fin 1) := by
  funext d; match d with | ⟨0, _⟩ => rfl | ⟨1, _⟩ => rfl
theorem idx_v8 (r : Fin 4096) (k : Fin 1024) : idx_main_v8 (ix2 r k) = ix2 r (⟨0, Nat.one_pos⟩ : Fin 1) := by
  funext d; match d with | ⟨0, _⟩ => rfl | ⟨1, _⟩ => rfl
theorem lidx_v10 (u v : Fin 4096) (k : Fin 1024) : lidx_main_v10 (ix2 u v) k = ix2 u k := by
  funext d; match d with | ⟨0, _⟩ => rfl | ⟨1, _⟩ => rfl
theorem ridx_v10 (u v : Fin 4096) (k : Fin 1024) : ridx_main_v10 (ix2 u v) k = ix2 v k := by
  funext d; match d with | ⟨0, _⟩ => rfl | ⟨1, _⟩ => rfl

/-! ### The first argument's stages -/

/-- A row's sum of squares, from the host's `0`. -/
theorem call0_v1_at (a : FVec Ideal S4096x1024 .f32) (r : Fin 4096) :
    val_main_call0_v1 (F := Ideal) a (ix1 r) = 0 + Cert.Spec.sumSq a r := by
  rw [val_main_call0_v1_apply, val_main_call0_cst_apply, Ideal.ofBits_def, Ideal.ofBits_zero_f32]
  simp only [val_main_call0_v0_apply, idx_call0_v1, Ideal.mulf_def]
  rfl

/-- A row's clamped norm. -/
theorem v2_at (a : FVec Ideal S4096x1024 .f32) (r : Fin 4096) (z : Fin 1) :
    val_main_v2 (F := Ideal) a (ix2 r z) = Cert.Spec.nrmR a r := by
  rw [val_main_v2_apply, val_main_v0_apply, val_main_call0_v2_apply, idx_call0_v2, call0_v1_at,
    val_main_v1_apply, val_main_cst_apply, Ideal.hostUnary_sqrt_def, Ideal.maximumf_def, Ideal.ofBits_def]
  rfl

/-- An entry divided by its row's clamped norm. -/
theorem v4_at (a : FVec Ideal S4096x1024 .f32) (r : Fin 4096) (k : Fin 1024) :
    val_main_v4 (F := Ideal) a (ix2 r k) = Cert.Spec.unitR a r k := by
  rw [val_main_v4_apply, val_main_v3_apply, idx_v3, v2_at, Ideal.hostDivf_def]
  rfl

/-! ### The second argument's stages -/

theorem call1_v1_at (b : FVec Ideal S4096x1024 .f32) (r : Fin 4096) :
    val_main_call1_v1 (F := Ideal) b (ix1 r) = 0 + Cert.Spec.sumSq b r := by
  rw [val_main_call1_v1_apply, val_main_call1_cst_apply, Ideal.ofBits_def, Ideal.ofBits_zero_f32]
  simp only [val_main_call1_v0_apply, idx_call1_v1, Ideal.mulf_def]
  rfl

theorem v7_at (b : FVec Ideal S4096x1024 .f32) (r : Fin 4096) (z : Fin 1) :
    val_main_v7 (F := Ideal) b (ix2 r z) = Cert.Spec.nrmR b r := by
  rw [val_main_v7_apply, val_main_v5_apply, val_main_call1_v2_apply, idx_call1_v2, call1_v1_at,
    val_main_v6_apply, val_main_cst_0_apply, Ideal.hostUnary_sqrt_def, Ideal.maximumf_def, Ideal.ofBits_def]
  rfl

theorem v9_at (b : FVec Ideal S4096x1024 .f32) (r : Fin 4096) (k : Fin 1024) :
    val_main_v9 (F := Ideal) b (ix2 r k) = Cert.Spec.unitR b r k := by
  rw [val_main_v9_apply, val_main_v8_apply, idx_v8, v7_at, Ideal.hostDivf_def]
  rfl

/-! ### The contraction, `1 − cos`, its square -/

theorem v10_at (a b : FVec Ideal S4096x1024 .f32) (u v : Fin 4096) :
    val_main_v10 (F := Ideal) a b (ix2 u v) = ∑ k : Fin 1024, Cert.Spec.unitR a u k * Cert.Spec.unitR b v k := by
  rw [val_main_v10_apply]
  refine Finset.sum_congr rfl fun k _ => ?_
  rw [lidx_v10, ridx_v10, v4_at, v9_at]

theorem v13_at (a b : FVec Ideal S4096x1024 .f32) (u v : Fin 4096) :
    val_main_v13 (F := Ideal) a b (ix2 u v) = Cert.Spec.sqR a b u v := by
  rw [val_main_v13_apply, val_main_v12_apply, val_main_v11_apply, val_main_cst_1_apply, v10_at,
    Ideal.ofBits_def, Ideal.subf_def, Ideal.mulf_def]
  rfl

/-! ### The result -/

/-- The reference run's result term, at the extended reals, is the specification's loss of the two arguments. -/
theorem ref_eq (a b : FVec Ideal S4096x1024 .f32) :
    Host.reduceAdd (mulf (subf (broadcastInDim S4096x4096 ![] bcast_S_S4096x4096 (constant S_ .f32 0x3F800000#32)) (Host.dotGeneral dot_S4096x1024_S4096x1024_S4096x4096_1_1_0_0_n_n none (Host.divf a (broadcastInDim S4096x1024 ![0, 1] bcast_S4096x1_S4096x1024_0_1 (maximumf (Host.sqrt (broadcastInDim S4096x1 ![0] bcast_S4096_S4096x1_0 (Host.reduceAdd (mulf a a) (constant S_ .f32 0x00000000#32) reducesTo_S4096x1024_S4096_d1 h_S_))) (broadcastInDim S4096x1 ![] bcast_S_S4096x1 (constant S_ .f32 0x322BCC77#32))))) (Host.divf b (broadcastInDim S4096x1024 ![0, 1] bcast_S4096x1_S4096x1024_0_1 (maximumf (Host.sqrt (broadcastInDim S4096x1 ![0] bcast_S4096_S4096x1_0 (Host.reduceAdd (mulf b b) (constant S_ .f32 0x00000000#32) reducesTo_S4096x1024_S4096_d1 h_S_))) (broadcastInDim S4096x1 ![] bcast_S_S4096x1 (constant S_ .f32 0x322BCC77#32))))))) (subf (broadcastInDim S4096x4096 ![] bcast_S_S4096x4096 (constant S_ .f32 0x3F800000#32)) (Host.dotGeneral dot_S4096x1024_S4096x1024_S4096x4096_1_1_0_0_n_n none (Host.divf a (broadcastInDim S4096x1024 ![0, 1] bcast_S4096x1_S4096x1024_0_1 (maximumf (Host.sqrt (broadcastInDim S4096x1 ![0] bcast_S4096_S4096x1_0 (Host.reduceAdd (mulf a a) (constant S_ .f32 0x00000000#32) reducesTo_S4096x1024_S4096_d1 h_S_))) (broadcastInDim S4096x1 ![] bcast_S_S4096x1 (constant S_ .f32 0x322BCC77#32))))) (Host.divf b (broadcastInDim S4096x1024 ![0, 1] bcast_S4096x1_S4096x1024_0_1 (maximumf (Host.sqrt (broadcastInDim S4096x1 ![0] bcast_S4096_S4096x1_0 (Host.reduceAdd (mulf b b) (constant S_ .f32 0x00000000#32) reducesTo_S4096x1024_S4096_d1 h_S_))) (broadcastInDim S4096x1 ![] bcast_S_S4096x1 (constant S_ .f32 0x322BCC77#32)))))))) (constant S_ .f32 0x00000000#32) reducesTo_S4096x4096_S_d0_1 h_S_
      = fun _ => Cert.Spec.refLoss a b := by
  rw [val_main_v14_eq]
  funext i
  rw [val_main_v14_apply, val_main_cst_2_apply, Ideal.ofBits_def, Ideal.ofBits_zero_f32]
  unfold Cert.Spec.refLoss
  refine congrArg (0 + ·) (Finset.sum_congr rfl fun j _ => ?_)
  obtain ⟨u, v, rfl⟩ : ∃ u v, j = ix2 u v := ⟨j 0, j 1, eq_ix2 j⟩
  exact v13_at a b u v

end Cert.ReferenceIdeal.RefValue

end
-- ==== Proof.SpecLaw.lean ====
/-
  The two forms of the loss agree for all extended-real inputs.

  Three facts carry it.  The clamp ε is a positive real, so a clamped norm `max s ε` is never zero, whatever `s`
  is; hence division by it is multiplication by its inverse, and `x · (1 · n⁻¹) = x · n⁻¹`: the scaled entries of
  the two forms are equal.  The host's leading `0 +` is absorbed.  Last, the sum over all of [4096, 4096] is
  regrouped into the 4 × 4 tiles of 1024 × 1024, which uses only that addition on the extended reals is
  commutative and associative.
-/
import proofs.«166180_j84524956386054_2_alg».proof.Proof.Spec

noncomputable section

namespace Cert.Spec

open Idealize.ShloMosaic Idealize.ShloMosaic.ValueIdx

/-! ### The two literals -/

/-- The literal `one` is the real number 1: sign 0, exponent field 127, fraction 0. -/
theorem one_eq : one = 1 := by
  unfold one
  simp [Ideal.ofBits, Ideal.ieee]
  rw [← EReal.coe_mul, ← EReal.coe_one, EReal.coe_eq_coe_iff]
  norm_num

/-- The clamp ε is a positive real: sign 0, exponent field 100, so `(2²³ + fraction) · 2⁻⁵⁰`. -/
theorem eps_pos : 0 < eps := by
  unfold eps
  simp [Ideal.ofBits, Ideal.ieee]
  rw [← EReal.coe_mul, EReal.coe_pos]
  positivity

/-! ### The clamped norm is never zero -/

theorem nrm_pos (x : Arr) (r : Fin 4096) : 0 < nrm x r := lt_max_of_lt_right eps_pos

theorem nrm_ne_zero (x : Arr) (r : Fin 4096) : nrm x r ≠ 0 := ne_of_gt (nrm_pos x r)

theorem nrmR_eq (x : Arr) (r : Fin 4096) : nrmR x r = nrm x r := by
  unfold nrmR nrm
  rw [zero_add]

/-! ### The scaled entries agree -/

/-- Off zero, multiplying by the reciprocal is dividing. -/
theorem mul_div_one (a n : EReal) (hn : n ≠ 0) : a * Ideal.div one n = Ideal.div a n := by
  unfold Ideal.div
  rw [if_neg hn, if_neg hn, one_eq, one_mul]

theorem unitK_eq (x : Arr) (r : Fin 4096) (k : Fin 1024) : unitK x r k = unitR x r k := by
  unfold unitK unitR
  rw [nrmR_eq, mul_div_one _ _ (nrm_ne_zero x r)]

theorem sqK_eq (x y : Arr) (u v : Fin 4096) : sqK x y u v = sqR x y u v := by
  unfold sqK sqR
  simp only [unitK_eq]

/-! ### Regrouping the sum into tiles -/

/-- A row index of [4096] is a tile-row and a row inside it. -/
def rowEquiv : Fin 4 × Fin 1024 ≃ Fin 4096 where
  toFun p := rowOf p.1 p.2
  invFun u := (⟨u.val / 1024, by omega⟩, ⟨u.val % 1024, by omega⟩)
  left_inv p := by
    rcases p with ⟨i, r⟩
    ext
    · simp only [rowOf]; omega
    · simp only [rowOf]; omega
  right_inv u := by
    ext
    simp only [rowOf]; omega

/-- A sum over the 4096 rows, tile-row by tile-row. -/
theorem sum_rows (g : Fin 4096 → EReal) :
    ∑ u : Fin 4096, g u = ∑ i : Fin 4, ∑ r : Fin 1024, g (rowOf i r) := by
  rw [← Equiv.sum_comp rowEquiv g, Fintype.sum_prod_type]
  rfl

/-- The sum over every index of [4096, 4096], tile by tile: tile-row, tile-column, row, column. -/
theorem sum_tiles (f : Fin 4096 → Fin 4096 → EReal) :
    (∑ idx : (⟨2, ![4096, 4096]⟩ : Shape).Idx, f (idx 0) (idx 1))
      = ∑ i : Fin 4, ∑ j : Fin 4, ∑ r : Fin 1024, ∑ c : Fin 1024, f (rowOf i r) (rowOf j c) := by
  rw [sum_idx2 (fun idx : (⟨2, ![4096, 4096]⟩ : Shape).Idx => f (idx 0) (idx 1))]
  show (∑ u : Fin 4096, ∑ v : Fin 4096, f u v) = _
  rw [sum_rows]
  refine Finset.sum_congr rfl fun i _ => ?_
  have h : ∀ r : Fin 1024, (∑ v : Fin 4096, f (rowOf i r) v)
      = ∑ j : Fin 4, ∑ c : Fin 1024, f (rowOf i r) (rowOf j c) := fun r => sum_rows _
  rw [Finset.sum_congr rfl fun r _ => h r, Finset.sum_comm]

/-- The running sum at the last tile of a tile-row is the sum of its four tiles. -/
theorem accUpTo_three (x y : Arr) (i : Fin 4) (h : 3 < 4) :
    accUpTo x y i 3 h = ∑ j : Fin 4, part x y i j := by
  simp only [accUpTo, zero_add, Fin.sum_univ_four]
  rfl

/-! ### The law -/

theorem kerLoss_eq_refLoss (x y : Arr) : kerLoss x y = refLoss x y := by
  unfold kerLoss refLoss
  rw [sum_tiles (sqR x y)]
  congr 1
  refine Finset.sum_congr rfl fun i _ => ?_
  rw [accUpTo_three]
  refine Finset.sum_congr rfl fun j _ => ?_
  unfold part
  simp only [sqK_eq]

end Cert.Spec

end
-- ==== Proof.lean ====
/-
  The certificate of the tiled cosine-similarity loss against its jnp reference.

  Both programs compute, for inputs x, y : [4096, 1024], the sum over all (u, v) of (1 − cos[u,v])², where
  cos[u,v] = Σ_k a[u,k]·b[v,k] and a, b are x, y with every row divided by max(‖row‖, ε).

  The kernel does it in three pallas_calls: two that scale the rows (multiplying by the reciprocal 1 / max(‖row‖, ε)),
  and one that walks the 4 × 4 tiles of [4096, 4096], adding each tile's partial sum into a one-word scratch along a
  row of tiles and writing the row's total out at its last tile; the host adds the four totals.  The reference
  divides the rows, takes one matrix product and sums once.

  Two laws join them, and neither needs the inputs finite: dividing by a number that is never zero (the clamped norm
  is at least ε > 0) is multiplying by its reciprocal; and a finite sum over the extended reals may be regrouped
  (tile by tile, row by row) — addition there is commutative and associative.  The frames — each program runs to the
  end, faults nowhere and leaves its inputs as launched — come from the run of the program's four segments; the
  idealization rewrote no operation, so `preserves` asks nothing.
-/
import proofs.«166180_j84524956386054_2_alg».proof.Defs
import proofs.«166180_j84524956386054_2_alg».proof.Proof.Gen.Kernel
import proofs.«166180_j84524956386054_2_alg».proof.Proof.Gen.KernelIdeal
import proofs.«166180_j84524956386054_2_alg».proof.Proof.Gen.ReferenceIdeal
import proofs.«166180_j84524956386054_2_alg».proof.Proof.Gen.ReferenceIdeal.Run
import proofs.«166180_j84524956386054_2_alg».proof.Proof.Gen.ReferenceIdeal.Read
import proofs.«166180_j84524956386054_2_alg».proof.Proof.Gen.Pre_finite_inputs
import proofs.«166180_j84524956386054_2_alg».proof.Proof.WRun
import proofs.«166180_j84524956386054_2_alg».proof.Proof.LossFinal
import proofs.«166180_j84524956386054_2_alg».proof.Proof.RefValue
import proofs.«166180_j84524956386054_2_alg».proof.Proof.SpecLaw
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves both inputs as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From inputs that agree, the idealized kernel ends at its tile-by-tile loss and the reference at its one sum:
    the same extended real. -/
theorem algebraic : Cert.algebraic_KernelIdeal_ReferenceIdeal := by
  intro m ρ m' ρ' _ hagree
  refine ⟨fun c => fun _ => Cert.Spec.kerLoss (Cert.KernelIdeal.Fr.argX m c) (Cert.KernelIdeal.Fr.argY m c),
    Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.RefValue.ref_eq _ _).trans ?_
  funext _
  exact (Cert.Spec.kerLoss_eq_refLoss _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
